-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg1 main_v24
  let main_cst_7 : FVec F S_ .f32 := constant S_ .f32 0x00000000#32
  let main_v26 : FVec F S8192 .f32 := (fun x v => Host.reduceAdd x v reducesTo_S8192x8192_S8192_d1 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .une main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x256 .f32) (main_arg1 : FVec F S8192x8192 .f32) (main_arg2 : FVec F S256x128 .f32) (main_arg3 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S8192x128 : Shape := ⟨2, ![8192, 128]⟩
abbrev S1024x256 : Shape := ⟨2, ![1024, 256]⟩
abbrev S1024x128 : Shape := ⟨2, ![1024, 128]⟩
abbrev S1x128 : Shape := ⟨2, ![1, 128]⟩
abbrev S1024x2048 : Shape := ⟨2, ![1024, 2048]⟩
abbrev S1024x1 : Shape := ⟨2, ![1024, 1]⟩
abbrev S1024 : Shape := ⟨1, ![1024]⟩
abbrev S2048x128 : Shape := ⟨2, ![2048, 128]⟩

abbrev nBuf : Space → Nat
  | .hbm => 7
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S128, .f32⟩
  | .hbm, ⟨4, _⟩ => ⟨S8192x128, .f32⟩
  | .hbm, ⟨5, _⟩ => ⟨S1x128, .f32⟩
  | .hbm, ⟨6, _⟩ => ⟨S8192x128, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1024x128, .f32⟩
  | .local _ .vmem, ⟨4, _⟩ => ⟨S1024x128, .f32⟩
  | .local _ .vmem, ⟨5, _⟩ => ⟨S1024x2048, .f32⟩
  | .local _ .vmem, ⟨6, _⟩ => ⟨S1024x2048, .f32⟩
  | .local _ .vmem, ⟨7, _⟩ => ⟨S8192x128, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v11 : BitVec 32 := Scalar.muli arg1 c2048_i32
  v11
def k1_off1 (i : grid1.Coords) : Fin 2 → Nat :=
  let arg1 : BitVec 32 := BitVec.ofNat 32 (i 1).val
  let c2048_i32 : BitVec 32 := 2048#32
  let v11 : BitVec 32 := Scalar.muli arg1 c2048_i32
  let v12 : BitVec 32 := v11
  let v13 : Index := Scalar.indexCast v12
  let c0_6 : Index := 0#32
  ![v13.toNat, 0]
def k1_cond2 (i : grid1.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_12 : BitVec 32 := 0#32
  let v26 : BitVec 1 := Scalar.cmpi .ne v25 c0_i32_12
  v26

def k1_mult2 (i : grid1.Coords) : BitVec 32 :=
  let arg0 : BitVec 32 := BitVec.ofNat 32 (i 0).val
  let c1024_i32 : BitVec 32 := 1024#32
  let v27 : BitVec 32 := Scalar.muli arg0 c1024_i32
  v27
def k1_off2 (i : grid1.Coords) : Fin 2 → Nat :=
  let arg0 : BitVec 32 := BitVec.ofNat 32 (i 0).val
  let c1024_i32 : BitVec 32 := 1024#32
  let v27 : BitVec 32 := Scalar.muli arg0 c1024_i32
  let v28 : BitVec 32 := v27
  let v29 : Index := Scalar.indexCast v28
  let c0_13 : Index := 0#32
  ![v29.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  shapeCasts_S128_S1x128 : S128.ShapeCasts S1x128
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  h_S2048x128 : 0 < S2048x128.numel
  shapeCasts_S2048x128_S2048x128 : S2048x128.ShapeCasts S2048x128
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x256_S256x128_S1024x128_1_0_0_1_n_n_wf : DotDims.WF S1024x256 S256x128 S1024x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S8192x128.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S128, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .i1⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x128, .f32⟩
  | .hbm, ⟨26, _⟩ => ⟨S8192x128, .f32⟩
  | .hbm, ⟨27, _⟩ => ⟨S1x128, .f32⟩
  | .hbm, ⟨28, _⟩ => ⟨S8192x128, .f32⟩
  | .hbm, ⟨29, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KernelR0.lean ====
/-
  The first kernel region (support = input · weight, one row block of 1024 rows per grid point), at the buffer
  contents `V` the region is entered with.

  At grid point t the body reads the point's [1024, 256] block of the input and the whole [256, 128] weight, and
  stores their product over the whole [1024, 128] output block. Nothing is kept between points, so the proof data
  are: each input window's buffer at its block, the output window's buffer at the product of the two input blocks.
-/
import proofs.«165755_j59588376264936_2_alg».proof.Proof.Gen.Kernel.Launch
import proofs.«165755_j59588376264936_2_alg».proof.Proof.Gen.Kernel.Skeleton
import proofs.«165755_j59588376264936_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block's staging buffer holds the point's block of the input, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point (fetched once; its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S1024x256 := Rect.unit (s := S1024x256) ![0, 0] S1024x256.size inb_S1024x256_S1024x256_0_0
abbrev r0_w : Rect S256x128 := Rect.unit (s := S256x128) ![0, 0] S256x128.size inb_S256x128_S256x128_0_0
abbrev r0_o : Rect S1024x128 := Rect.unit (s := S1024x128) ![0, 0] S1024x128.size inb_S1024x128_S1024x128_0_0

/-! ## What the body leaves in the output window's buffer -/

/-- The output block after the body: its one whole-block store of the product of the two loaded blocks. -/
def out0_2 (x0 : Vec F S1024x256 .f32) (x1 : Vec F S256x128 .f32) : Vec F S1024x128 .f32 :=
  View.canon [⟨r0_o, k0_pay1 (View.ld x0 r0_x) (View.ld x1 r0_w)⟩]

/-- The store covers the block. -/
theorem cover0_2 (p0 : Vec F S1024x128 .f32) (y : S1024x128.Idx) :
    ∃ pc ∈ ([⟨r0_o, p0⟩] : List (View.Piece (Elt F) S1024x128 .f32)), y ∈ pc.1.set :=
  View.cover_of_tiled [⟨r0_o, p0⟩] S1024x128.size (by rfl) y

/-! ## The body's triple -/

set_option maxHeartbeats 1000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (arg1 : Memref sig .tc .vmem S1024x256 .f32) (harg1 : arg1.IsWhole)
    (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the first region on core `c`: the arrays as the region finds them; after the body at point
    `t` each input's buffer at its block, the output's at the product of the input blocks; nothing kept between
    points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KernelR1Runs.lean ====
/-
  The second kernel region (the normalised propagation), what its three control cases share.

  The grid is 8 row blocks by 4 column blocks of the adjacency matrix; point t has row block t / 4 and column
  block t % 4. Two scratch buffers are carried between points: the partial product (1024 x 128) and the partial
  row sums (1024 x 1). At column block 0 both are reset to zero before accumulating; at column block 3, after
  accumulating, the output block is computed from them and stored. So there are three cases of the two
  conditions: first column block (A), middle (B), last (C). The output window is idle except in case C.
-/
import proofs.«165755_j59588376264936_2_alg».proof.Proof.Gen.Kernel.Launch
import proofs.«165755_j59588376264936_2_alg».proof.Proof.Gen.Kernel.Skeleton
import proofs.«165755_j59588376264936_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block's staging buffer holds the point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The support matrix's staging buffer holds the whole matrix at every point (fetched once). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point (fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the first column block": the condition of the reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last column block": the condition of the final store. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Outside the last column block the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last column block it is live. -/
theorem liveAt1_3 : ∀ t : Fin cfg1.N, cond1_1 (grid1.coords t) → cfg1.idle 3 (grid1.coords t) = false := by decide +kernel

/-! ## The memrefs the body is called with -/

abbrev VO1_3 : View sig .tc .vmem S1024x128 .f32 := (Memref.whole cc1_stg3_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The two scratch buffers: the partial product and the partial row sums. -/
abbrev scM1_0 : Memref sig .tc .vmem S1024x128 .f32 := Memref.whole cc1_scratch0
abbrev scM1_1 : Memref sig .tc .vmem S1024x1 .f32 := Memref.whole cc1_scratch1
abbrev VS1_0 : View sig .tc .vmem S1024x128 .f32 := scM1_0.view
abbrev VS1_1 : View sig .tc .vmem S1024x1 .f32 := scM1_1.view

/-- The scoped buffers of this core that the region never touches: the first region's staging buffers, each whole at
    some contents. -/
def restStg (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class invariant opened: the untouched scoped buffers, the two scratch buffers at some contents, the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Frm

end
-- ==== Proof.KernelR1RunA.lean ====
/-
  The second kernel region's body in case A: the first column block. Both scratch buffers are reset to zero, then the block's row sums and product are added; nothing is stored into the output block.
  The pieces each buffer ends with are found by running the body symbolically; they are the witness of this
  definition, and the triple that comes with them is what the body obligation uses at the case's points.
-/
import proofs.«165755_j59588376264936_2_alg».proof.Proof.KernelR1Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the pieces the output block (`L3`), the partial product (`LS0`) and the partial row sums (`LS1`) end with,
    last store first, with the body's triple on whole memrefs. -/
noncomputable def kernelRun1_A (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i)
    (x0 : Vec F S1024x2048 .f32) (x1 : Vec F S8192x128 .f32) (x2 : Vec F S1x128 .f32) :
    Σ' (L3 : List (View.Piece (Elt F) S1024x128 .f32)) (LS0 : List (View.Piece (Elt F) S1024x128 .f32)), { LS1 : List (View.Piece (Elt F) S1024x1 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Frm

end
-- ==== Proof.KernelR1RunB.lean ====
/-
  The second kernel region's body in case B: a middle column block. The block's row sums and product are added to what the point before left in the scratch buffers; nothing is stored into the output block.
  The pieces each buffer ends with are found by running the body symbolically; they are the witness of this
  definition, and the triple that comes with them is what the body obligation uses at the case's points.
-/
import proofs.«165755_j59588376264936_2_alg».proof.Proof.KernelR1Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: the pieces the output block (`L3`), the partial product (`LS0`) and the partial row sums (`LS1`) end with,
    last store first, with the body's triple on whole memrefs. -/
noncomputable def kernelRun1_B (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i)
    (x0 : Vec F S1024x2048 .f32) (x1 : Vec F S8192x128 .f32) (x2 : Vec F S1x128 .f32) (xs0 : Vec F S1024x128 .f32) (xs1 : Vec F S1024x1 .f32) :
    Σ' (L3 : List (View.Piece (Elt F) S1024x128 .f32)) (LS0 : List (View.Piece (Elt F) S1024x128 .f32)), { LS1 : List (View.Piece (Elt F) S1024x1 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Frm

end
-- ==== Proof.KernelR1RunC.lean ====
/-
  The second kernel region's body in case C: the last column block. The block's row sums and product are added to the scratch buffers, and the output block is computed from them, the row block's own rows of the support matrix and the bias, and stored whole.
  The pieces each buffer ends with are found by running the body symbolically; they are the witness of this
  definition, and the triple that comes with them is what the body obligation uses at the case's points.
-/
import proofs.«165755_j59588376264936_2_alg».proof.Proof.KernelR1Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the pieces the output block (`L3`), the partial product (`LS0`) and the partial row sums (`LS1`) end with,
    last store first, with the body's triple on whole memrefs. -/
noncomputable def kernelRun1_C (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i)
    (x0 : Vec F S1024x2048 .f32) (x1 : Vec F S8192x128 .f32) (x2 : Vec F S1x128 .f32) (xs0 : Vec F S1024x128 .f32) (xs1 : Vec F S1024x1 .f32) :
    Σ' (L3 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Frm

end
-- ==== Proof.KernelR1.lean ====
/-
  The second kernel region: what the output block and the two scratch buffers hold after each grid point, the proof
  data, and the body obligation.

  After point t the partial-product scratch and the partial-row-sum scratch hold what the point's case leaves in
  them: in the first column block a function of the point's blocks alone (they are reset first), otherwise a
  function of the point's blocks and of what the point before left. The output block is stored in the last column
  block only, from the two scratch buffers, the row block's rows of the support matrix and the bias; elsewhere the
  window is idle and its buffer is handed back untouched. The region's invariant carries the two scratch buffers at
  these contents from each point to the next.
-/
import proofs.«165755_j59588376264936_2_alg».proof.Proof.KernelR1RunA
import proofs.«165755_j59588376264936_2_alg».proof.Proof.KernelR1RunB
import proofs.«165755_j59588376264936_2_alg».proof.Proof.KernelR1RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions at a point from its position in its row of the grid -/

theorem hcA0 (t : Fin cfg1.N) (h0 : t.val % 4 = 0) : cond1_0 (grid1.coords t) := (hcond1_0 t).mpr h0
theorem hcA1 (t : Fin cfg1.N) (h0 : t.val % 4 = 0) : ¬cond1_1 (grid1.coords t) := fun h => by
  have := (hcond1_1 t).mp h; omega
theorem hcN0 (t : Fin cfg1.N) (h0 : ¬t.val % 4 = 0) : ¬cond1_0 (grid1.coords t) := fun h => h0 ((hcond1_0 t).mp h)
theorem hcN1 (t : Fin cfg1.N) (h1 : ¬t.val % 4 = 3) : ¬cond1_1 (grid1.coords t) := fun h => h1 ((hcond1_1 t).mp h)
theorem hcC1 (t : Fin cfg1.N) (h1 : t.val % 4 = 3) : cond1_1 (grid1.coords t) := (hcond1_1 t).mpr h1

/-! ## Each case's run at a point's memrefs and blocks -/

abbrev runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (hcA0 t h0) (hcA1 t h0) (iblk1 V c 0 t) (iblk1 V c 1 t) (iblk1 V c 2 t)
abbrev runB (c : Dev nD) (t : Fin cfg1.N) (h0 : ¬t.val % 4 = 0) (h1 : ¬t.val % 4 = 3) (p0 : Vec F S1024x128 .f32) (p1 : Vec F S1024x1 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (hcN0 t h0) (hcN1 t h1) (iblk1 V c 0 t) (iblk1 V c 1 t) (iblk1 V c 2 t) p0 p1
abbrev runC (c : Dev nD) (t : Fin cfg1.N) (h0 : ¬t.val % 4 = 0) (h1 : t.val % 4 = 3) (p0 : Vec F S1024x128 .f32) (p1 : Vec F S1024x1 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (hcN0 t h0) (hcC1 t h1) (iblk1 V c 0 t) (iblk1 V c 1 t) (iblk1 V c 2 t) p0 p1

/-! ## What each case leaves: its pieces read back -/

def out1_A_3 (c : Dev nD) (t : Fin cfg1.N) (h0 : t.val % 4 = 0) : Vec F S1024x128 .f32 :=
  VO1_3.read (Elt F) (VO1_3.writes (Elt F) VO1_3.junk (runA V c t h0).1)
def sout1_A_0 (c : Dev nD) (t : Fin cfg1.N) (h0 : t.val % 4 = 0) : Vec F S1024x128 .f32 :=
  VS1_0.read (Elt F) (VS1_0.writes (Elt F) VS1_0.junk (runA V c t h0).2.1)
def sout1_A_1 (c : Dev nD) (t : Fin cfg1.N) (h0 : t.val % 4 = 0) : Vec F S1024x1 .f32 :=
  VS1_1.read (Elt F) (VS1_1.writes (Elt F) VS1_1.junk (runA V c t h0).2.2.1)
theorem scover1_A_0 (c : Dev nD) (t : Fin cfg1.N) (h0 : t.val % 4 = 0) (y : S1024x128.Idx) :
    ∃ pc ∈ (runA V c t h0).2.1, y ∈ pc.1.set :=
  View.cover_of_tiledL (runA V c t h0).2.1 S1024x128.size (by sl_kernel_rfl) y
theorem scover1_A_1 (c : Dev nD) (t : Fin cfg1.N) (h0 : t.val % 4 = 0) (y : S1024x1.Idx) :
    ∃ pc ∈ (runA V c t h0).2.2.1, y ∈ pc.1.set :=
  View.cover_of_tiledL (runA V c t h0).2.2.1 S1024x1.size (by sl_kernel_rfl) y

def out1_B_3 (c : Dev nD) (t : Fin cfg1.N) (h0 : ¬t.val % 4 = 0) (h1 : ¬t.val % 4 = 3) (p0 : Vec F S1024x128 .f32) (p1 : Vec F S1024x1 .f32) : Vec F S1024x128 .f32 :=
  VO1_3.read (Elt F) (VO1_3.writes (Elt F) VO1_3.junk (runB V c t h0 h1 p0 p1).1)
def sout1_B_0 (c : Dev nD) (t : Fin cfg1.N) (h0 : ¬t.val % 4 = 0) (h1 : ¬t.val % 4 = 3) (p0 : Vec F S1024x128 .f32) (p1 : Vec F S1024x1 .f32) : Vec F S1024x128 .f32 :=
  VS1_0.read (Elt F) (VS1_0.writes (Elt F) VS1_0.junk (runB V c t h0 h1 p0 p1).2.1)
def sout1_B_1 (c : Dev nD) (t : Fin cfg1.N) (h0 : ¬t.val % 4 = 0) (h1 : ¬t.val % 4 = 3) (p0 : Vec F S1024x128 .f32) (p1 : Vec F S1024x1 .f32) : Vec F S1024x1 .f32 :=
  VS1_1.read (Elt F) (VS1_1.writes (Elt F) VS1_1.junk (runB V c t h0 h1 p0 p1).2.2.1)
theorem scover1_B_0 (c : Dev nD) (t : Fin cfg1.N) (h0 : ¬t.val % 4 = 0) (h1 : ¬t.val % 4 = 3) (p0 : Vec F S1024x128 .f32) (p1 : Vec F S1024x1 .f32) (y : S1024x128.Idx) :
    ∃ pc ∈ (runB V c t h0 h1 p0 p1).2.1, y ∈ pc.1.set :=
  View.cover_of_tiledL (runB V c t h0 h1 p0 p1).2.1 S1024x128.size (by sl_kernel_rfl) y
theorem scover1_B_1 (c : Dev nD) (t : Fin cfg1.N) (h0 : ¬t.val % 4 = 0) (h1 : ¬t.val % 4 = 3) (p0 : Vec F S1024x128 .f32) (p1 : Vec F S1024x1 .f32) (y : S1024x1.Idx) :
    ∃ pc ∈ (runB V c t h0 h1 p0 p1).2.2.1, y ∈ pc.1.set :=
  View.cover_of_tiledL (runB V c t h0 h1 p0 p1).2.2.1 S1024x1.size (by sl_kernel_rfl) y

def out1_C_3 (c : Dev nD) (t : Fin cfg1.N) (h0 : ¬t.val % 4 = 0) (h1 : t.val % 4 = 3) (p0 : Vec F S1024x128 .f32) (p1 : Vec F S1024x1 .f32) : Vec F S1024x128 .f32 :=
  VO1_3.read (Elt F) (VO1_3.writes (Elt F) VO1_3.junk (runC V c t h0 h1 p0 p1).1)
def sout1_C_0 (c : Dev nD) (t : Fin cfg1.N) (h0 : ¬t.val % 4 = 0) (h1 : t.val % 4 = 3) (p0 : Vec F S1024x128 .f32) (p1 : Vec F S1024x1 .f32) : Vec F S1024x128 .f32 :=
  VS1_0.read (Elt F) (VS1_0.writes (Elt F) VS1_0.junk (runC V c t h0 h1 p0 p1).2.1)
def sout1_C_1 (c : Dev nD) (t : Fin cfg1.N) (h0 : ¬t.val % 4 = 0) (h1 : t.val % 4 = 3) (p0 : Vec F S1024x128 .f32) (p1 : Vec F S1024x1 .f32) : Vec F S1024x1 .f32 :=
  VS1_1.read (Elt F) (VS1_1.writes (Elt F) VS1_1.junk (runC V c t h0 h1 p0 p1).2.2.1)
theorem cover1_C_3 (c : Dev nD) (t : Fin cfg1.N) (h0 : ¬t.val % 4 = 0) (h1 : t.val % 4 = 3) (p0 : Vec F S1024x128 .f32) (p1 : Vec F S1024x1 .f32) (y : S1024x128.Idx) :
    ∃ pc ∈ (runC V c t h0 h1 p0 p1).1, y ∈ pc.1.set :=
  View.cover_of_tiledL (runC V c t h0 h1 p0 p1).1 S1024x128.size (by sl_kernel_rfl) y
theorem scover1_C_0 (c : Dev nD) (t : Fin cfg1.N) (h0 : ¬t.val % 4 = 0) (h1 : t.val % 4 = 3) (p0 : Vec F S1024x128 .f32) (p1 : Vec F S1024x1 .f32) (y : S1024x128.Idx) :
    ∃ pc ∈ (runC V c t h0 h1 p0 p1).2.1, y ∈ pc.1.set :=
  View.cover_of_tiledL (runC V c t h0 h1 p0 p1).2.1 S1024x128.size (by sl_kernel_rfl) y
theorem scover1_C_1 (c : Dev nD) (t : Fin cfg1.N) (h0 : ¬t.val % 4 = 0) (h1 : t.val % 4 = 3) (p0 : Vec F S1024x128 .f32) (p1 : Vec F S1024x1 .f32) (y : S1024x1.Idx) :
    ∃ pc ∈ (runC V c t h0 h1 p0 p1).2.2.1, y ∈ pc.1.set :=
  View.cover_of_tiledL (runC V c t h0 h1 p0 p1).2.2.1 S1024x1.size (by sl_kernel_rfl) y

/-! ## What the buffers hold after each point -/

/-- One point's step: the output block and the two scratch buffers after point `t`, from what the point before left in
    the scratch buffers (`p0`, `p1`; not consulted in the first column block, where they are reset). -/
def stepOut (c : Dev nD) (t : Fin cfg1.N) (p0 : Vec F S1024x128 .f32) (p1 : Vec F S1024x1 .f32) :
    Vec F S1024x128 .f32 × Vec F S1024x128 .f32 × Vec F S1024x1 .f32 :=
  if h0 : t.val % 4 = 0 then
    (out1_A_3 V c t h0, sout1_A_0 V c t h0, sout1_A_1 V c t h0)
  else if h1 : t.val % 4 = 3 then
    (out1_C_3 V c t h0 h1 p0 p1, sout1_C_0 V c t h0 h1 p0 p1, sout1_C_1 V c t h0 h1 p0 p1)
  else
    (out1_B_3 V c t h0 h1 p0 p1, sout1_B_0 V c t h0 h1 p0 p1, sout1_B_1 V c t h0 h1 p0 p1)

/-- The accumulation: output block, partial product, partial row sums after position `n`. -/
def outsAt1 (c : Dev nD) : (n : ℕ) → n < cfg1.N → Vec F S1024x128 .f32 × Vec F S1024x128 .f32 × Vec F S1024x1 .f32
  | 0, hn => stepOut V c ⟨0, hn⟩ (VS1_0.read (Elt F) VS1_0.junk) (VS1_1.read (Elt F) VS1_1.junk)
  | n + 1, hn => stepOut V c ⟨n + 1, hn⟩ (outsAt1 c n (Nat.lt_of_succ_lt hn)).2.1 (outsAt1 c n (Nat.lt_of_succ_lt hn)).2.2

theorem outsAt1_A (c : Dev nD) (t : Fin cfg1.N) (h0 : t.val % 4 = 0) :
    outsAt1 V c t.val t.isLt = (out1_A_3 V c t h0, sout1_A_0 V c t h0, sout1_A_1 V c t h0) := by
  obtain ⟨n, hn⟩ := t
  cases n with
  | zero => show stepOut V c ⟨0, hn⟩ _ _ = _; exact dif_pos h0
  | succ n => show stepOut V c ⟨n + 1, hn⟩ _ _ = _; exact dif_pos h0

theorem outsAt1_B (c : Dev nD) (t : Fin cfg1.N) (h0 : ¬t.val % 4 = 0) (h1 : ¬t.val % 4 = 3) :
    outsAt1 V c t.val t.isLt =
      (out1_B_3 V c t h0 h1 (outsAt1 V c (t.val - 1) (Nat.lt_of_le_of_lt (Nat.sub_le _ _) t.isLt)).2.1 (outsAt1 V c (t.val - 1) (Nat.lt_of_le_of_lt (Nat.sub_le _ _) t.isLt)).2.2,
       sout1_B_0 V c t h0 h1 (outsAt1 V c (t.val - 1) (Nat.lt_of_le_of_lt (Nat.sub_le _ _) t.isLt)).2.1 (outsAt1 V c (t.val - 1) (Nat.lt_of_le_of_lt (Nat.sub_le _ _) t.isLt)).2.2,
       sout1_B_1 V c t h0 h1 (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd (Nat.zero_mod _) h0
  | succ n => show stepOut V c ⟨n + 1, hn⟩ _ _ = _; exact (dif_neg h0).trans (dif_neg h1)

theorem outsAt1_C (c : Dev nD) (t : Fin cfg1.N) (h0 : ¬t.val % 4 = 0) (h1 : t.val % 4 = 3) :
    outsAt1 V c t.val t.isLt =
      (out1_C_3 V c t h0 h1 (outsAt1 V c (t.val - 1) (Nat.lt_of_le_of_lt (Nat.sub_le _ _) t.isLt)).2.1 (outsAt1 V c (t.val - 1) (Nat.lt_of_le_of_lt (Nat.sub_le _ _) t.isLt)).2.2,
       sout1_C_0 V c t h0 h1 (outsAt1 V c (t.val - 1) (Nat.lt_of_le_of_lt (Nat.sub_le _ _) t.isLt)).2.1 (outsAt1 V c (t.val - 1) (Nat.lt_of_le_of_lt (Nat.sub_le _ _) t.isLt)).2.2,
       sout1_C_1 V c t h0 h1 (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd (Nat.zero_mod _) h0
  | succ n => show stepOut V c ⟨n + 1, hn⟩ _ _ = _; exact (dif_neg h0).trans (dif_pos h1)

/-! ## The region's invariant -/

/-- Before position `n`: at the start the class's invariant (both scratch buffers at anything); afterwards the untouched
    scoped buffers, the two scratch buffers at what the point before left, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ owns (c : Thread nD τ) scM1_0 fullShare ((outsAt1 V c n hn).2.1) ∗ owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ owns (c : Thread nD τ) scM1_0 fullShare ((outsAt1 V c n hn).2.1) ∗ owns (c : Thread nD τ) scM1_1 fullShare ((outsAt1 V c n hn).2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point. The point's position in its row of the grid says which case it is in; the invariant hands
    the body the two scratch buffers at what the point before left (at anything at the very first point) and takes
    them back at this point's contents; the inputs' buffers hold their blocks; the output's buffer is stored whole in
    the last column block and handed back untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 4 = 0
  ·
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (hcA1 t h0)) (noFlush1_3 t (hcA1 t h0))]
    rw [outsAt1_A V c t h0]
    unfold sout1_A_0 sout1_A_1; (try dsimp only)
    by_cases hz : t.val = 0
    · rw [PhiS_castSucc V c t, PhiS_zero V c _ _ hz, PhiA1_eq]
      iintro ⟨⟨⟨Ha0, Ha1, Ha2, Ha3, Ha4, HS0, HS1⟩, Hg⟩, Ho, ⟨%d0, H0⟩, ⟨%d1, H1⟩, ⟨%d2, H2⟩, ⟨%d3, H3⟩⟩
      iapply ((runA V c t h0).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [Ha0 Ha1 Ha2 Ha3 Ha4 HS0 HS1 Hg]
      · isplitl [Ha0 Ha1 Ha2 Ha3 Ha4 HS0 HS1]
        · isplitl [Ha0]; · iexact Ha0
          isplitl [Ha1]; · iexact Ha1
          isplitl [Ha2]; · iexact Ha2
          isplitl [Ha3]; · iexact Ha3
          isplitl [Ha4]; · iexact Ha4
          isplitl [HS0]
          · unfold owns; iexists _; isplitr
            swap; · iexact HS0
            ipureintro; exact View.read_writes_of_cover _ _ _ _ _ (scover1_A_0 V c t h0)
          · unfold owns; iexists _; isplitr
            swap; · iexact HS1
            ipureintro; exact View.read_writes_of_cover _ _ _ _ _ (scover1_A_1 V c t h0)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ha0, Ha1, Ha2, Ha3, Ha4, HS0, HS1⟩, Hg⟩, Ho, ⟨%d0, H0⟩, ⟨%d1, H1⟩, ⟨%d2, H2⟩, ⟨%d3, H3⟩⟩
      iapply ((runA V c t h0).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [Ha0 Ha1 Ha2 Ha3 Ha4 HS0 HS1 Hg]
      · isplitl [Ha0 Ha1 Ha2 Ha3 Ha4 HS0 HS1]
        · isplitl [Ha0]; · iexact Ha0
          isplitl [Ha1]; · iexact Ha1
          isplitl [Ha2]; · iexact Ha2
          isplitl [Ha3]; · iexact Ha3
          isplitl [Ha4]; · iexact Ha4
          isplitl [HS0]
          · unfold owns; iexists _; isplitr
            swap; · iexact HS0
            ipureintro; exact View.read_writes_of_cover _ _ _ _ _ (scover1_A_0 V c t h0)
          · unfold owns; iexists _; isplitr
            swap; · iexact HS1
            ipureintro; exact View.read_writes_of_cover _ _ _ _ _ (scover1_A_1 V c t h0)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t (hcC1 t h1)], after1_3]
      rw [outsAt1_C V c t h0 h1]
      unfold out1_C_3 sout1_C_0 sout1_C_1; (try dsimp only)
      rw [PhiS_castSucc V c t, PhiS_pos V c _ _ hz]
      iintro ⟨⟨⟨Ha0, Ha1, Ha2, Ha3, Ha4, HS0, HS1⟩, Hg⟩, Ho, ⟨%d0, H0⟩, ⟨%d1, H1⟩, ⟨%d2, H2⟩, ⟨%d3, H3⟩⟩
      iapply ((runC V c t h0 h1 _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [Ha0 Ha1 Ha2 Ha3 Ha4 HS0 HS1 Hg]
      · isplitl [Ha0 Ha1 Ha2 Ha3 Ha4 HS0 HS1]
        · isplitl [Ha0]; · iexact Ha0
          isplitl [Ha1]; · iexact Ha1
          isplitl [Ha2]; · iexact Ha2
          isplitl [Ha3]; · iexact Ha3
          isplitl [Ha4]; · iexact Ha4
          isplitl [HS0]
          · unfold owns; iexists _; isplitr
            swap; · iexact HS0
            ipureintro; exact View.read_writes_of_cover _ _ _ _ _ (scover1_C_0 V c t h0 h1 _ _)
          · unfold owns; iexists _; isplitr
            swap; · iexact HS1
            ipureintro; exact View.read_writes_of_cover _ _ _ _ _ (scover1_C_1 V c t h0 h1 _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 V c t h0 h1 _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (hcN1 t h1)) (noFlush1_3 t (hcN1 t h1))]
      rw [outsAt1_B V c t h0 h1]
      unfold sout1_B_0 sout1_B_1; (try dsimp only)
      rw [PhiS_castSucc V c t, PhiS_pos V c _ _ hz]
      iintro ⟨⟨⟨Ha0, Ha1, Ha2, Ha3, Ha4, HS0, HS1⟩, Hg⟩, Ho, ⟨%d0, H0⟩, ⟨%d1, H1⟩, ⟨%d2, H2⟩, ⟨%d3, H3⟩⟩
      iapply ((runB V c t h0 h1 _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [Ha0 Ha1 Ha2 Ha3 Ha4 HS0 HS1 Hg]
      · isplitl [Ha0 Ha1 Ha2 Ha3 Ha4 HS0 HS1]
        · isplitl [Ha0]; · iexact Ha0
          isplitl [Ha1]; · iexact Ha1
          isplitl [Ha2]; · iexact Ha2
          isplitl [Ha3]; · iexact Ha3
          isplitl [Ha4]; · iexact Ha4
          isplitl [HS0]
          · unfold owns; iexists _; isplitr
            swap; · iexact HS0
            ipureintro; exact View.read_writes_of_cover _ _ _ _ _ (scover1_B_0 V c t h0 h1 _ _)
          · unfold owns; iexists _; isplitr
            swap; · iexact HS1
            ipureintro; exact View.read_writes_of_cover _ _ _ _ _ (scover1_B_1 V c t h0 h1 _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Ha0, Ha1, Ha2, Ha3, Ha4, HS0, HS1⟩, Hg⟩
  isplitl [Ha0 Ha1 Ha2 Ha3 Ha4 HS0 HS1]
  · isplitl [Ha0]; · iexact Ha0
    isplitl [Ha1]; · iexact Ha1
    isplitl [Ha2]; · iexact Ha2
    isplitl [Ha3]; · iexact Ha3
    isplitl [Ha4]; · iexact Ha4
    isplitl [HS0]; · iexists _; iexact HS0
    iexists _; iexact HS1
  iexact Hg

end Cert.Kernel.Frm

end
-- ==== Proof.KernelMain.lean ====
/-
  The whole run of the kernel's program: the first region, the reshape of the bias on the host, the second region.

  The buffer contents at each boundary are a fold from the launch memory: a region leaves its windows' arrays at what
  its write-backs make of them and every other buffer as it found it; the host line writes its own result only. Read
  at the end, the result buffer holds what the second region's write-backs leave in it, and each argument array walks
  back through the fold to its launch contents, since no step writes an argument.
-/
import proofs.«165755_j59588376264936_2_alg».proof.Proof.KernelR0
import proofs.«165755_j59588376264936_2_alg».proof.Proof.KernelR1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch (the first region's entry). -/
abbrev W0 : Dev nD → Valuation τ sig (Elt F) := fun c b => m (c, b)
abbrev Va : (c : Dev nD) → (b : Ref sig .tc) → Buf (Elt F) ((c : Thread nD τ).loc b) := fun c b => W0 m c b
/-- At the first region's exit: its arrays at what its write-backs leave, every other buffer as entered. -/
def W1 (c : Dev nD) : Valuation τ sig (Elt F) :=
  Pipeline.withArrays spec0 c (W0 m c) fun w => (dat0 (Va m) c).arrAt w cfg0.N
theorem W1_arr (c : Dev nD) (w : Fin cfg0.W) :
    W1 m c (Proc.devRef .tc (Pipeline.arrRef spec0 w)) = (dat0 (Va m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vx : (c : Dev nD) → (b : Ref sig .tc) → Buf (Elt F) ((c : Thread nD τ).loc b) := fun c b => W1 m c b
theorem hF0 (c : Dev nD) (w : Fin cfg0.W) : (dat0 (Va m) c).arrAt w cfg0.N = Vx m c (Pipeline.arrRef spec0 w) :=
  (W1_arr m c w).symm
theorem hrest0 (c : Dev nD) : ∀ b, b ∉ Finset.univ.image (Pipeline.arrRef spec0) → Vx m c b = Va m c b :=
  fun b hb => W1_of_ne m c b fun w e => hb (Finset.mem_image.mpr ⟨w, Finset.mem_univ _, e⟩)

/-- After the host line (the second region's entry). -/
abbrev W2 : Dev nD → Valuation τ sig (Elt F) := fun c => StableHlo.after hostOps1 (W1 m c)
abbrev Vb : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (dat1 (Vb m) c).arrAt w cfg1.N
theorem W3_arr (c : Dev nD) (w : Fin cfg1.W) :
    W3 m c (Proc.devRef .tc (Pipeline.arrRef spec1 w)) = (dat1 (Vb m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vy : (c : Dev nD) → (b : Ref sig .tc) → Buf (Elt F) ((c : Thread nD τ).loc b) := fun c b => W3 m c b
theorem hF1 (c : Dev nD) (w : Fin cfg1.W) : (dat1 (Vb m) c).arrAt w cfg1.N = Vy m c (Pipeline.arrRef spec1 w) :=
  (W3_arr m c w).symm
theorem hrest1 (c : Dev nD) : ∀ b, b ∉ Finset.univ.image (Pipeline.arrRef spec1) → Vy m c b = Vb m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | (repeat' apply And.intro) <;> exact StableHlo.devRef_ne_of_ne (by decide) | exact StableHlo.devRef_ne_of_ne (by decide)))
    _ = W0 m c (Proc.devRef .tc main_arg0) := (W1_arr m c 0).trans (((dat0 (Va m) c).arrAt_in 0 rfl _).trans (A_eq0 (Va m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (Vb m) c).arrAt_in 0 rfl _).trans (A_eq1 (Vb m) c 0))
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | (repeat' apply And.intro) <;> exact StableHlo.devRef_ne_of_ne (by decide) | exact StableHlo.devRef_ne_of_ne (by decide)))
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | (repeat' apply And.intro) <;> exact StableHlo.devRef_ne_of_ne (by decide) | exact StableHlo.devRef_ne_of_ne (by decide)))
    _ = W0 m c (Proc.devRef .tc main_arg2) := (W1_arr m c 1).trans (((dat0 (Va m) c).arrAt_in 1 rfl _).trans (A_eq0 (Va m) c 1))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | (repeat' apply And.intro) <;> exact StableHlo.devRef_ne_of_ne (by decide) | exact StableHlo.devRef_ne_of_ne (by decide)))
    _ = W0 m c (Proc.devRef .tc main_arg3) := W1_of_ne m c main_arg3 (by decide)
    _ = m ((c : Thread nD τ).loc main_arg3) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region over the thread state: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vx m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. The class's
    invariant becomes the region's own at the first point and is given back after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (Vb m) c
    unfold Pipeline.ΦA at h
    iintro ⟨Hp, -, Hr⟩
    iapply h
    isplitl [Hr]; · iexact Hr
    iexact Hp
  hout c := by
    have h : (pdats m 1 c).Φ (Fin.last _) ⊢ Pipeline.ΦA spec1 c := hout1 (Vb m) c
    unfold Pipeline.ΦA at h
    rw [Pipeline.ownSems0_none]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vy m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has the result buffer at what the second region's write-backs leave in it and the
    four argument arrays as launched. -/
theorem run (ρ : Dev nD → PrngReg) : θ_run defs (onTc (τ := τ) (main (F := F))) ⟨m, fun _ => 0, ρ⟩ (fun r => ∀ c : Dev nD,
      r.2.mem ((c.tc : Thread nD τ).loc main_v2) = (dat1 (Vb m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_arr m c 3),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

end Cert.Kernel.Frm

end
-- ==== Proof.KernelIdealR0.lean ====
/-
  The first kernel region (support = input · weight, one row block of 1024 rows per grid point), at the buffer
  contents `V` the region is entered with.

  At grid point t the body reads the point's [1024, 256] block of the input and the whole [256, 128] weight, and
  stores their product over the whole [1024, 128] output block. Nothing is kept between points, so the proof data
  are: each input window's buffer at its block, the output window's buffer at the product of the two input blocks.
-/
import proofs.«165755_j59588376264936_2_alg».proof.Proof.Gen.KernelIdeal.Launch
import proofs.«165755_j59588376264936_2_alg».proof.Proof.Gen.KernelIdeal.Skeleton
import proofs.«165755_j59588376264936_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block's staging buffer holds the point's block of the input, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point (fetched once; its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S1024x256 := Rect.unit (s := S1024x256) ![0, 0] S1024x256.size inb_S1024x256_S1024x256_0_0
abbrev r0_w : Rect S256x128 := Rect.unit (s := S256x128) ![0, 0] S256x128.size inb_S256x128_S256x128_0_0
abbrev r0_o : Rect S1024x128 := Rect.unit (s := S1024x128) ![0, 0] S1024x128.size inb_S1024x128_S1024x128_0_0

/-! ## What the body leaves in the output window's buffer -/

/-- The output block after the body: its one whole-block store of the product of the two loaded blocks. -/
def out0_2 (x0 : Vec F S1024x256 .f32) (x1 : Vec F S256x128 .f32) : Vec F S1024x128 .f32 :=
  View.canon [⟨r0_o, k0_pay1 (View.ld x0 r0_x) (View.ld x1 r0_w)⟩]

/-- The store covers the block. -/
theorem cover0_2 (p0 : Vec F S1024x128 .f32) (y : S1024x128.Idx) :
    ∃ pc ∈ ([⟨r0_o, p0⟩] : List (View.Piece (Elt F) S1024x128 .f32)), y ∈ pc.1.set :=
  View.cover_of_tiled [⟨r0_o, p0⟩] S1024x128.size (by rfl) y

/-! ## The body's triple -/

set_option maxHeartbeats 1000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (arg1 : Memref sig .tc .vmem S1024x256 .f32) (harg1 : arg1.IsWhole)
    (arg2 : Memref sig .tc .vmem S256x128 .f32) (harg2 : arg2.IsWhole) (arg3 : Memref sig .tc .vmem S1024x128 .f32) (harg3 : arg3.IsWhole)
    (x0 : Vec F S1024x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of the first region on core `c`: the arrays as the region finds them; after the body at point
    `t` each input's buffer at its block, the output's at the product of the input blocks; nothing kept between
    points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KernelIdealR1Runs.lean ====
/-
  The second kernel region (the normalised propagation), what its three control cases share.

  The grid is 8 row blocks by 4 column blocks of the adjacency matrix; point t has row block t / 4 and column
  block t % 4. Two scratch buffers are carried between points: the partial product (1024 x 128) and the partial
  row sums (1024 x 1). At column block 0 both are reset to zero before accumulating; at column block 3, after
  accumulating, the output block is computed from them and stored. So there are three cases of the two
  conditions: first column block (A), middle (B), last (C). The output window is idle except in case C.
-/
import proofs.«165755_j59588376264936_2_alg».proof.Proof.Gen.KernelIdeal.Launch
import proofs.«165755_j59588376264936_2_alg».proof.Proof.Gen.KernelIdeal.Skeleton
import proofs.«165755_j59588376264936_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block's staging buffer holds the point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The support matrix's staging buffer holds the whole matrix at every point (fetched once). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the row at every point (fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is the first column block": the condition of the reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last column block": the condition of the final store. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Outside the last column block the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last column block it is live. -/
theorem liveAt1_3 : ∀ t : Fin cfg1.N, cond1_1 (grid1.coords t) → cfg1.idle 3 (grid1.coords t) = false := by decide +kernel

/-! ## The memrefs the body is called with -/

abbrev VO1_3 : View sig .tc .vmem S1024x128 .f32 := (Memref.whole cc1_stg3_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The two scratch buffers: the partial product and the partial row sums. -/
abbrev scM1_0 : Memref sig .tc .vmem S1024x128 .f32 := Memref.whole cc1_scratch0
abbrev scM1_1 : Memref sig .tc .vmem S1024x1 .f32 := Memref.whole cc1_scratch1
abbrev VS1_0 : View sig .tc .vmem S1024x128 .f32 := scM1_0.view
abbrev VS1_1 : View sig .tc .vmem S1024x1 .f32 := scM1_1.view

/-- The scoped buffers of this core that the region never touches: the first region's staging buffers, each whole at
    some contents. -/
def restStg (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The class invariant opened: the untouched scoped buffers, the two scratch buffers at some contents, the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Frm

end
-- ==== Proof.KernelIdealR1RunA.lean ====
/-
  The second kernel region's body in case A: the first column block. Both scratch buffers are reset to zero, then the block's row sums and product are added; nothing is stored into the output block.
  The pieces each buffer ends with are found by running the body symbolically; they are the witness of this
  definition, and the triple that comes with them is what the body obligation uses at the case's points.
-/
import proofs.«165755_j59588376264936_2_alg».proof.Proof.KernelIdealR1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the pieces the output block (`L3`), the partial product (`LS0`) and the partial row sums (`LS1`) end with,
    last store first, with the body's triple on whole memrefs. -/
noncomputable def kernelRun1_A (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond1_0 i) (hc1 : ¬cond1_1 i)
    (x0 : Vec F S1024x2048 .f32) (x1 : Vec F S8192x128 .f32) (x2 : Vec F S1x128 .f32) :
    Σ' (L3 : List (View.Piece (Elt F) S1024x128 .f32)) (LS0 : List (View.Piece (Elt F) S1024x128 .f32)), { LS1 : List (View.Piece (Elt F) S1024x1 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Frm

end
-- ==== Proof.KernelIdealR1RunB.lean ====
/-
  The second kernel region's body in case B: a middle column block. The block's row sums and product are added to what the point before left in the scratch buffers; nothing is stored into the output block.
  The pieces each buffer ends with are found by running the body symbolically; they are the witness of this
  definition, and the triple that comes with them is what the body obligation uses at the case's points.
-/
import proofs.«165755_j59588376264936_2_alg».proof.Proof.KernelIdealR1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: the pieces the output block (`L3`), the partial product (`LS0`) and the partial row sums (`LS1`) end with,
    last store first, with the body's triple on whole memrefs. -/
noncomputable def kernelRun1_B (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : ¬cond1_1 i)
    (x0 : Vec F S1024x2048 .f32) (x1 : Vec F S8192x128 .f32) (x2 : Vec F S1x128 .f32) (xs0 : Vec F S1024x128 .f32) (xs1 : Vec F S1024x1 .f32) :
    Σ' (L3 : List (View.Piece (Elt F) S1024x128 .f32)) (LS0 : List (View.Piece (Elt F) S1024x128 .f32)), { LS1 : List (View.Piece (Elt F) S1024x1 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, ?_, fun xi3 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Frm

end
-- ==== Proof.KernelIdealR1RunC.lean ====
/-
  The second kernel region's body in case C: the last column block. The block's row sums and product are added to the scratch buffers, and the output block is computed from them, the row block's own rows of the support matrix and the bias, and stored whole.
  The pieces each buffer ends with are found by running the body symbolically; they are the witness of this
  definition, and the triple that comes with them is what the body obligation uses at the case's points.
-/
import proofs.«165755_j59588376264936_2_alg».proof.Proof.KernelIdealR1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the pieces the output block (`L3`), the partial product (`LS0`) and the partial row sums (`LS1`) end with,
    last store first, with the body's triple on whole memrefs. -/
noncomputable def kernelRun1_C (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond1_0 i) (hc1 : cond1_1 i)
    (x0 : Vec F S1024x2048 .f32) (x1 : Vec F S8192x128 .f32) (x2 : Vec F S1x128 .f32) (xs0 : Vec F S1024x128 .f32) (xs1 : Vec F S1024x1 .f32) :
    Σ' (L3 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Frm

end
-- ==== Proof.KernelIdealR1.lean ====
/-
  The second kernel region: what the output block and the two scratch buffers hold after each grid point, the proof
  data, and the body obligation.

  After point t the partial-product scratch and the partial-row-sum scratch hold what the point's case leaves in
  them: in the first column block a function of the point's blocks alone (they are reset first), otherwise a
  function of the point's blocks and of what the point before left. The output block is stored in the last column
  block only, from the two scratch buffers, the row block's rows of the support matrix and the bias; elsewhere the
  window is idle and its buffer is handed back untouched. The region's invariant carries the two scratch buffers at
  these contents from each point to the next.
-/
import proofs.«165755_j59588376264936_2_alg».proof.Proof.KernelIdealR1RunA
import proofs.«165755_j59588376264936_2_alg».proof.Proof.KernelIdealR1RunB
import proofs.«165755_j59588376264936_2_alg».proof.Proof.KernelIdealR1RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions at a point from its position in its row of the grid -/

theorem hcA0 (t : Fin cfg1.N) (h0 : t.val % 4 = 0) : cond1_0 (grid1.coords t) := (hcond1_0 t).mpr h0
theorem hcA1 (t : Fin cfg1.N) (h0 : t.val % 4 = 0) : ¬cond1_1 (grid1.coords t) := fun h => by
  have := (hcond1_1 t).mp h; omega
theorem hcN0 (t : Fin cfg1.N) (h0 : ¬t.val % 4 = 0) : ¬cond1_0 (grid1.coords t) := fun h => h0 ((hcond1_0 t).mp h)
theorem hcN1 (t : Fin cfg1.N) (h1 : ¬t.val % 4 = 3) : ¬cond1_1 (grid1.coords t) := fun h => h1 ((hcond1_1 t).mp h)
theorem hcC1 (t : Fin cfg1.N) (h1 : t.val % 4 = 3) : cond1_1 (grid1.coords t) := (hcond1_1 t).mpr h1

/-! ## Each case's run at a point's memrefs and blocks -/

abbrev runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (hcA0 t h0) (hcA1 t h0) (iblk1 V c 0 t) (iblk1 V c 1 t) (iblk1 V c 2 t)
abbrev runB (c : Dev nD) (t : Fin cfg1.N) (h0 : ¬t.val % 4 = 0) (h1 : ¬t.val % 4 = 3) (p0 : Vec F S1024x128 .f32) (p1 : Vec F S1024x1 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (hcN0 t h0) (hcN1 t h1) (iblk1 V c 0 t) (iblk1 V c 1 t) (iblk1 V c 2 t) p0 p1
abbrev runC (c : Dev nD) (t : Fin cfg1.N) (h0 : ¬t.val % 4 = 0) (h1 : t.val % 4 = 3) (p0 : Vec F S1024x128 .f32) (p1 : Vec F S1024x1 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (hcN0 t h0) (hcC1 t h1) (iblk1 V c 0 t) (iblk1 V c 1 t) (iblk1 V c 2 t) p0 p1

/-! ## What each case leaves: its pieces read back -/

def out1_A_3 (c : Dev nD) (t : Fin cfg1.N) (h0 : t.val % 4 = 0) : Vec F S1024x128 .f32 :=
  VO1_3.read (Elt F) (VO1_3.writes (Elt F) VO1_3.junk (runA V c t h0).1)
def sout1_A_0 (c : Dev nD) (t : Fin cfg1.N) (h0 : t.val % 4 = 0) : Vec F S1024x128 .f32 :=
  VS1_0.read (Elt F) (VS1_0.writes (Elt F) VS1_0.junk (runA V c t h0).2.1)
def sout1_A_1 (c : Dev nD) (t : Fin cfg1.N) (h0 : t.val % 4 = 0) : Vec F S1024x1 .f32 :=
  VS1_1.read (Elt F) (VS1_1.writes (Elt F) VS1_1.junk (runA V c t h0).2.2.1)
theorem scover1_A_0 (c : Dev nD) (t : Fin cfg1.N) (h0 : t.val % 4 = 0) (y : S1024x128.Idx) :
    ∃ pc ∈ (runA V c t h0).2.1, y ∈ pc.1.set :=
  View.cover_of_tiledL (runA V c t h0).2.1 S1024x128.size (by sl_kernel_rfl) y
theorem scover1_A_1 (c : Dev nD) (t : Fin cfg1.N) (h0 : t.val % 4 = 0) (y : S1024x1.Idx) :
    ∃ pc ∈ (runA V c t h0).2.2.1, y ∈ pc.1.set :=
  View.cover_of_tiledL (runA V c t h0).2.2.1 S1024x1.size (by sl_kernel_rfl) y

def out1_B_3 (c : Dev nD) (t : Fin cfg1.N) (h0 : ¬t.val % 4 = 0) (h1 : ¬t.val % 4 = 3) (p0 : Vec F S1024x128 .f32) (p1 : Vec F S1024x1 .f32) : Vec F S1024x128 .f32 :=
  VO1_3.read (Elt F) (VO1_3.writes (Elt F) VO1_3.junk (runB V c t h0 h1 p0 p1).1)
def sout1_B_0 (c : Dev nD) (t : Fin cfg1.N) (h0 : ¬t.val % 4 = 0) (h1 : ¬t.val % 4 = 3) (p0 : Vec F S1024x128 .f32) (p1 : Vec F S1024x1 .f32) : Vec F S1024x128 .f32 :=
  VS1_0.read (Elt F) (VS1_0.writes (Elt F) VS1_0.junk (runB V c t h0 h1 p0 p1).2.1)
def sout1_B_1 (c : Dev nD) (t : Fin cfg1.N) (h0 : ¬t.val % 4 = 0) (h1 : ¬t.val % 4 = 3) (p0 : Vec F S1024x128 .f32) (p1 : Vec F S1024x1 .f32) : Vec F S1024x1 .f32 :=
  VS1_1.read (Elt F) (VS1_1.writes (Elt F) VS1_1.junk (runB V c t h0 h1 p0 p1).2.2.1)
theorem scover1_B_0 (c : Dev nD) (t : Fin cfg1.N) (h0 : ¬t.val % 4 = 0) (h1 : ¬t.val % 4 = 3) (p0 : Vec F S1024x128 .f32) (p1 : Vec F S1024x1 .f32) (y : S1024x128.Idx) :
    ∃ pc ∈ (runB V c t h0 h1 p0 p1).2.1, y ∈ pc.1.set :=
  View.cover_of_tiledL (runB V c t h0 h1 p0 p1).2.1 S1024x128.size (by sl_kernel_rfl) y
theorem scover1_B_1 (c : Dev nD) (t : Fin cfg1.N) (h0 : ¬t.val % 4 = 0) (h1 : ¬t.val % 4 = 3) (p0 : Vec F S1024x128 .f32) (p1 : Vec F S1024x1 .f32) (y : S1024x1.Idx) :
    ∃ pc ∈ (runB V c t h0 h1 p0 p1).2.2.1, y ∈ pc.1.set :=
  View.cover_of_tiledL (runB V c t h0 h1 p0 p1).2.2.1 S1024x1.size (by sl_kernel_rfl) y

def out1_C_3 (c : Dev nD) (t : Fin cfg1.N) (h0 : ¬t.val % 4 = 0) (h1 : t.val % 4 = 3) (p0 : Vec F S1024x128 .f32) (p1 : Vec F S1024x1 .f32) : Vec F S1024x128 .f32 :=
  VO1_3.read (Elt F) (VO1_3.writes (Elt F) VO1_3.junk (runC V c t h0 h1 p0 p1).1)
def sout1_C_0 (c : Dev nD) (t : Fin cfg1.N) (h0 : ¬t.val % 4 = 0) (h1 : t.val % 4 = 3) (p0 : Vec F S1024x128 .f32) (p1 : Vec F S1024x1 .f32) : Vec F S1024x128 .f32 :=
  VS1_0.read (Elt F) (VS1_0.writes (Elt F) VS1_0.junk (runC V c t h0 h1 p0 p1).2.1)
def sout1_C_1 (c : Dev nD) (t : Fin cfg1.N) (h0 : ¬t.val % 4 = 0) (h1 : t.val % 4 = 3) (p0 : Vec F S1024x128 .f32) (p1 : Vec F S1024x1 .f32) : Vec F S1024x1 .f32 :=
  VS1_1.read (Elt F) (VS1_1.writes (Elt F) VS1_1.junk (runC V c t h0 h1 p0 p1).2.2.1)
theorem cover1_C_3 (c : Dev nD) (t : Fin cfg1.N) (h0 : ¬t.val % 4 = 0) (h1 : t.val % 4 = 3) (p0 : Vec F S1024x128 .f32) (p1 : Vec F S1024x1 .f32) (y : S1024x128.Idx) :
    ∃ pc ∈ (runC V c t h0 h1 p0 p1).1, y ∈ pc.1.set :=
  View.cover_of_tiledL (runC V c t h0 h1 p0 p1).1 S1024x128.size (by sl_kernel_rfl) y
theorem scover1_C_0 (c : Dev nD) (t : Fin cfg1.N) (h0 : ¬t.val % 4 = 0) (h1 : t.val % 4 = 3) (p0 : Vec F S1024x128 .f32) (p1 : Vec F S1024x1 .f32) (y : S1024x128.Idx) :
    ∃ pc ∈ (runC V c t h0 h1 p0 p1).2.1, y ∈ pc.1.set :=
  View.cover_of_tiledL (runC V c t h0 h1 p0 p1).2.1 S1024x128.size (by sl_kernel_rfl) y
theorem scover1_C_1 (c : Dev nD) (t : Fin cfg1.N) (h0 : ¬t.val % 4 = 0) (h1 : t.val % 4 = 3) (p0 : Vec F S1024x128 .f32) (p1 : Vec F S1024x1 .f32) (y : S1024x1.Idx) :
    ∃ pc ∈ (runC V c t h0 h1 p0 p1).2.2.1, y ∈ pc.1.set :=
  View.cover_of_tiledL (runC V c t h0 h1 p0 p1).2.2.1 S1024x1.size (by sl_kernel_rfl) y

/-! ## What the buffers hold after each point -/

/-- One point's step: the output block and the two scratch buffers after point `t`, from what the point before left in
    the scratch buffers (`p0`, `p1`; not consulted in the first column block, where they are reset). -/
def stepOut (c : Dev nD) (t : Fin cfg1.N) (p0 : Vec F S1024x128 .f32) (p1 : Vec F S1024x1 .f32) :
    Vec F S1024x128 .f32 × Vec F S1024x128 .f32 × Vec F S1024x1 .f32 :=
  if h0 : t.val % 4 = 0 then
    (out1_A_3 V c t h0, sout1_A_0 V c t h0, sout1_A_1 V c t h0)
  else if h1 : t.val % 4 = 3 then
    (out1_C_3 V c t h0 h1 p0 p1, sout1_C_0 V c t h0 h1 p0 p1, sout1_C_1 V c t h0 h1 p0 p1)
  else
    (out1_B_3 V c t h0 h1 p0 p1, sout1_B_0 V c t h0 h1 p0 p1, sout1_B_1 V c t h0 h1 p0 p1)

/-- The accumulation: output block, partial product, partial row sums after position `n`. -/
def outsAt1 (c : Dev nD) : (n : ℕ) → n < cfg1.N → Vec F S1024x128 .f32 × Vec F S1024x128 .f32 × Vec F S1024x1 .f32
  | 0, hn => stepOut V c ⟨0, hn⟩ (VS1_0.read (Elt F) VS1_0.junk) (VS1_1.read (Elt F) VS1_1.junk)
  | n + 1, hn => stepOut V c ⟨n + 1, hn⟩ (outsAt1 c n (Nat.lt_of_succ_lt hn)).2.1 (outsAt1 c n (Nat.lt_of_succ_lt hn)).2.2

theorem outsAt1_A (c : Dev nD) (t : Fin cfg1.N) (h0 : t.val % 4 = 0) :
    outsAt1 V c t.val t.isLt = (out1_A_3 V c t h0, sout1_A_0 V c t h0, sout1_A_1 V c t h0) := by
  obtain ⟨n, hn⟩ := t
  cases n with
  | zero => show stepOut V c ⟨0, hn⟩ _ _ = _; exact dif_pos h0
  | succ n => show stepOut V c ⟨n + 1, hn⟩ _ _ = _; exact dif_pos h0

theorem outsAt1_B (c : Dev nD) (t : Fin cfg1.N) (h0 : ¬t.val % 4 = 0) (h1 : ¬t.val % 4 = 3) :
    outsAt1 V c t.val t.isLt =
      (out1_B_3 V c t h0 h1 (outsAt1 V c (t.val - 1) (Nat.lt_of_le_of_lt (Nat.sub_le _ _) t.isLt)).2.1 (outsAt1 V c (t.val - 1) (Nat.lt_of_le_of_lt (Nat.sub_le _ _) t.isLt)).2.2,
       sout1_B_0 V c t h0 h1 (outsAt1 V c (t.val - 1) (Nat.lt_of_le_of_lt (Nat.sub_le _ _) t.isLt)).2.1 (outsAt1 V c (t.val - 1) (Nat.lt_of_le_of_lt (Nat.sub_le _ _) t.isLt)).2.2,
       sout1_B_1 V c t h0 h1 (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd (Nat.zero_mod _) h0
  | succ n => show stepOut V c ⟨n + 1, hn⟩ _ _ = _; exact (dif_neg h0).trans (dif_neg h1)

theorem outsAt1_C (c : Dev nD) (t : Fin cfg1.N) (h0 : ¬t.val % 4 = 0) (h1 : t.val % 4 = 3) :
    outsAt1 V c t.val t.isLt =
      (out1_C_3 V c t h0 h1 (outsAt1 V c (t.val - 1) (Nat.lt_of_le_of_lt (Nat.sub_le _ _) t.isLt)).2.1 (outsAt1 V c (t.val - 1) (Nat.lt_of_le_of_lt (Nat.sub_le _ _) t.isLt)).2.2,
       sout1_C_0 V c t h0 h1 (outsAt1 V c (t.val - 1) (Nat.lt_of_le_of_lt (Nat.sub_le _ _) t.isLt)).2.1 (outsAt1 V c (t.val - 1) (Nat.lt_of_le_of_lt (Nat.sub_le _ _) t.isLt)).2.2,
       sout1_C_1 V c t h0 h1 (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd (Nat.zero_mod _) h0
  | succ n => show stepOut V c ⟨n + 1, hn⟩ _ _ = _; exact (dif_neg h0).trans (dif_pos h1)

/-! ## The region's invariant -/

/-- Before position `n`: at the start the class's invariant (both scratch buffers at anything); afterwards the untouched
    scoped buffers, the two scratch buffers at what the point before left, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ owns (c : Thread nD τ) scM1_0 fullShare ((outsAt1 V c n hn).2.1) ∗ owns (c : Thread nD τ) scM1_1 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ owns (c : Thread nD τ) scM1_0 fullShare ((outsAt1 V c n hn).2.1) ∗ owns (c : Thread nD τ) scM1_1 fullShare ((outsAt1 V c n hn).2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point. The point's position in its row of the grid says which case it is in; the invariant hands
    the body the two scratch buffers at what the point before left (at anything at the very first point) and takes
    them back at this point's contents; the inputs' buffers hold their blocks; the output's buffer is stored whole in
    the last column block and handed back untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 4 = 0
  ·
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (hcA1 t h0)) (noFlush1_3 t (hcA1 t h0))]
    rw [outsAt1_A V c t h0]
    unfold sout1_A_0 sout1_A_1; (try dsimp only)
    by_cases hz : t.val = 0
    · rw [PhiS_castSucc V c t, PhiS_zero V c _ _ hz, PhiA1_eq]
      iintro ⟨⟨⟨Ha0, Ha1, Ha2, Ha3, Ha4, HS0, HS1⟩, Hg⟩, Ho, ⟨%d0, H0⟩, ⟨%d1, H1⟩, ⟨%d2, H2⟩, ⟨%d3, H3⟩⟩
      iapply ((runA V c t h0).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [Ha0 Ha1 Ha2 Ha3 Ha4 HS0 HS1 Hg]
      · isplitl [Ha0 Ha1 Ha2 Ha3 Ha4 HS0 HS1]
        · isplitl [Ha0]; · iexact Ha0
          isplitl [Ha1]; · iexact Ha1
          isplitl [Ha2]; · iexact Ha2
          isplitl [Ha3]; · iexact Ha3
          isplitl [Ha4]; · iexact Ha4
          isplitl [HS0]
          · unfold owns; iexists _; isplitr
            swap; · iexact HS0
            ipureintro; exact View.read_writes_of_cover _ _ _ _ _ (scover1_A_0 V c t h0)
          · unfold owns; iexists _; isplitr
            swap; · iexact HS1
            ipureintro; exact View.read_writes_of_cover _ _ _ _ _ (scover1_A_1 V c t h0)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Ha0, Ha1, Ha2, Ha3, Ha4, HS0, HS1⟩, Hg⟩, Ho, ⟨%d0, H0⟩, ⟨%d1, H1⟩, ⟨%d2, H2⟩, ⟨%d3, H3⟩⟩
      iapply ((runA V c t h0).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [Ha0 Ha1 Ha2 Ha3 Ha4 HS0 HS1 Hg]
      · isplitl [Ha0 Ha1 Ha2 Ha3 Ha4 HS0 HS1]
        · isplitl [Ha0]; · iexact Ha0
          isplitl [Ha1]; · iexact Ha1
          isplitl [Ha2]; · iexact Ha2
          isplitl [Ha3]; · iexact Ha3
          isplitl [Ha4]; · iexact Ha4
          isplitl [HS0]
          · unfold owns; iexists _; isplitr
            swap; · iexact HS0
            ipureintro; exact View.read_writes_of_cover _ _ _ _ _ (scover1_A_0 V c t h0)
          · unfold owns; iexists _; isplitr
            swap; · iexact HS1
            ipureintro; exact View.read_writes_of_cover _ _ _ _ _ (scover1_A_1 V c t h0)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t (hcC1 t h1)], after1_3]
      rw [outsAt1_C V c t h0 h1]
      unfold out1_C_3 sout1_C_0 sout1_C_1; (try dsimp only)
      rw [PhiS_castSucc V c t, PhiS_pos V c _ _ hz]
      iintro ⟨⟨⟨Ha0, Ha1, Ha2, Ha3, Ha4, HS0, HS1⟩, Hg⟩, Ho, ⟨%d0, H0⟩, ⟨%d1, H1⟩, ⟨%d2, H2⟩, ⟨%d3, H3⟩⟩
      iapply ((runC V c t h0 h1 _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [Ha0 Ha1 Ha2 Ha3 Ha4 HS0 HS1 Hg]
      · isplitl [Ha0 Ha1 Ha2 Ha3 Ha4 HS0 HS1]
        · isplitl [Ha0]; · iexact Ha0
          isplitl [Ha1]; · iexact Ha1
          isplitl [Ha2]; · iexact Ha2
          isplitl [Ha3]; · iexact Ha3
          isplitl [Ha4]; · iexact Ha4
          isplitl [HS0]
          · unfold owns; iexists _; isplitr
            swap; · iexact HS0
            ipureintro; exact View.read_writes_of_cover _ _ _ _ _ (scover1_C_0 V c t h0 h1 _ _)
          · unfold owns; iexists _; isplitr
            swap; · iexact HS1
            ipureintro; exact View.read_writes_of_cover _ _ _ _ _ (scover1_C_1 V c t h0 h1 _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 V c t h0 h1 _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (hcN1 t h1)) (noFlush1_3 t (hcN1 t h1))]
      rw [outsAt1_B V c t h0 h1]
      unfold sout1_B_0 sout1_B_1; (try dsimp only)
      rw [PhiS_castSucc V c t, PhiS_pos V c _ _ hz]
      iintro ⟨⟨⟨Ha0, Ha1, Ha2, Ha3, Ha4, HS0, HS1⟩, Hg⟩, Ho, ⟨%d0, H0⟩, ⟨%d1, H1⟩, ⟨%d2, H2⟩, ⟨%d3, H3⟩⟩
      iapply ((runB V c t h0 h1 _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [Ha0 Ha1 Ha2 Ha3 Ha4 HS0 HS1 Hg]
      · isplitl [Ha0 Ha1 Ha2 Ha3 Ha4 HS0 HS1]
        · isplitl [Ha0]; · iexact Ha0
          isplitl [Ha1]; · iexact Ha1
          isplitl [Ha2]; · iexact Ha2
          isplitl [Ha3]; · iexact Ha3
          isplitl [Ha4]; · iexact Ha4
          isplitl [HS0]
          · unfold owns; iexists _; isplitr
            swap; · iexact HS0
            ipureintro; exact View.read_writes_of_cover _ _ _ _ _ (scover1_B_0 V c t h0 h1 _ _)
          · unfold owns; iexists _; isplitr
            swap; · iexact HS1
            ipureintro; exact View.read_writes_of_cover _ _ _ _ _ (scover1_B_1 V c t h0 h1 _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨Ha0, Ha1, Ha2, Ha3, Ha4, HS0, HS1⟩, Hg⟩
  isplitl [Ha0 Ha1 Ha2 Ha3 Ha4 HS0 HS1]
  · isplitl [Ha0]; · iexact Ha0
    isplitl [Ha1]; · iexact Ha1
    isplitl [Ha2]; · iexact Ha2
    isplitl [Ha3]; · iexact Ha3
    isplitl [Ha4]; · iexact Ha4
    isplitl [HS0]; · iexists _; iexact HS0
    iexists _; iexact HS1
  iexact Hg

end Cert.KernelIdeal.Frm

end
-- ==== Proof.KernelIdealMain.lean ====
/-
  The whole run of the kernel's program: the first region, the reshape of the bias on the host, the second region.

  The buffer contents at each boundary are a fold from the launch memory: a region leaves its windows' arrays at what
  its write-backs make of them and every other buffer as it found it; the host line writes its own result only. Read
  at the end, the result buffer holds what the second region's write-backs leave in it, and each argument array walks
  back through the fold to its launch contents, since no step writes an argument.
-/
import proofs.«165755_j59588376264936_2_alg».proof.Proof.KernelIdealR0
import proofs.«165755_j59588376264936_2_alg».proof.Proof.KernelIdealR1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch (the first region's entry). -/
abbrev W0 : Dev nD → Valuation τ sig (Elt F) := fun c b => m (c, b)
abbrev Va : (c : Dev nD) → (b : Ref sig .tc) → Buf (Elt F) ((c : Thread nD τ).loc b) := fun c b => W0 m c b
/-- At the first region's exit: its arrays at what its write-backs leave, every other buffer as entered. -/
def W1 (c : Dev nD) : Valuation τ sig (Elt F) :=
  Pipeline.withArrays spec0 c (W0 m c) fun w => (dat0 (Va m) c).arrAt w cfg0.N
theorem W1_arr (c : Dev nD) (w : Fin cfg0.W) :
    W1 m c (Proc.devRef .tc (Pipeline.arrRef spec0 w)) = (dat0 (Va m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vx : (c : Dev nD) → (b : Ref sig .tc) → Buf (Elt F) ((c : Thread nD τ).loc b) := fun c b => W1 m c b
theorem hF0 (c : Dev nD) (w : Fin cfg0.W) : (dat0 (Va m) c).arrAt w cfg0.N = Vx m c (Pipeline.arrRef spec0 w) :=
  (W1_arr m c w).symm
theorem hrest0 (c : Dev nD) : ∀ b, b ∉ Finset.univ.image (Pipeline.arrRef spec0) → Vx m c b = Va m c b :=
  fun b hb => W1_of_ne m c b fun w e => hb (Finset.mem_image.mpr ⟨w, Finset.mem_univ _, e⟩)

/-- After the host line (the second region's entry). -/
abbrev W2 : Dev nD → Valuation τ sig (Elt F) := fun c => StableHlo.after hostOps1 (W1 m c)
abbrev Vb : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (dat1 (Vb m) c).arrAt w cfg1.N
theorem W3_arr (c : Dev nD) (w : Fin cfg1.W) :
    W3 m c (Proc.devRef .tc (Pipeline.arrRef spec1 w)) = (dat1 (Vb m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vy : (c : Dev nD) → (b : Ref sig .tc) → Buf (Elt F) ((c : Thread nD τ).loc b) := fun c b => W3 m c b
theorem hF1 (c : Dev nD) (w : Fin cfg1.W) : (dat1 (Vb m) c).arrAt w cfg1.N = Vy m c (Pipeline.arrRef spec1 w) :=
  (W3_arr m c w).symm
theorem hrest1 (c : Dev nD) : ∀ b, b ∉ Finset.univ.image (Pipeline.arrRef spec1) → Vy m c b = Vb m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | (repeat' apply And.intro) <;> exact StableHlo.devRef_ne_of_ne (by decide) | exact StableHlo.devRef_ne_of_ne (by decide)))
    _ = W0 m c (Proc.devRef .tc main_arg0) := (W1_arr m c 0).trans (((dat0 (Va m) c).arrAt_in 0 rfl _).trans (A_eq0 (Va m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (Vb m) c).arrAt_in 0 rfl _).trans (A_eq1 (Vb m) c 0))
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | (repeat' apply And.intro) <;> exact StableHlo.devRef_ne_of_ne (by decide) | exact StableHlo.devRef_ne_of_ne (by decide)))
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | (repeat' apply And.intro) <;> exact StableHlo.devRef_ne_of_ne (by decide) | exact StableHlo.devRef_ne_of_ne (by decide)))
    _ = W0 m c (Proc.devRef .tc main_arg2) := (W1_arr m c 1).trans (((dat0 (Va m) c).arrAt_in 1 rfl _).trans (A_eq0 (Va m) c 1))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | (repeat' apply And.intro) <;> exact StableHlo.devRef_ne_of_ne (by decide) | exact StableHlo.devRef_ne_of_ne (by decide)))
    _ = W0 m c (Proc.devRef .tc main_arg3) := W1_of_ne m c main_arg3 (by decide)
    _ = m ((c : Thread nD τ).loc main_arg3) := rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region over the thread state: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vx m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. The class's
    invariant becomes the region's own at the first point and is given back after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (Vb m) c
    unfold Pipeline.ΦA at h
    iintro ⟨Hp, -, Hr⟩
    iapply h
    isplitl [Hr]; · iexact Hr
    iexact Hp
  hout c := by
    have h : (pdats m 1 c).Φ (Fin.last _) ⊢ Pipeline.ΦA spec1 c := hout1 (Vb m) c
    unfold Pipeline.ΦA at h
    rw [Pipeline.ownSems0_none]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vy m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has the result buffer at what the second region's write-backs leave in it and the
    four argument arrays as launched. -/
theorem run (ρ : Dev nD → PrngReg) : θ_run defs (onTc (τ := τ) (main (F := F))) ⟨m, fun _ => 0, ρ⟩ (fun r => ∀ c : Dev nD,
      r.2.mem ((c.tc : Thread nD τ).loc main_v2) = (dat1 (Vb m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_arr m c 3),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

end Cert.KernelIdeal.Frm

end
-- ==== Proof.KernelIdealV1Pieces.lean ====
/-
  What each case of the second region's body leaves in the two scratch buffers and in the output block, as the
  body's payload terms of the point's blocks and of what the scratch buffers held before.

  With X the point's adjacency block, Y the 2048 rows of the support matrix that face it, Z the row block's own 1024
  rows of the support matrix and b the bias row: the partial row sums become  pay3 X (old row sums)  and the partial
  product  pay4 X Y (old product), the old values being the zero splats in the first column block; in the last column
  block the output block is  pay5 Z (new product) (new row sums) b.
-/
import proofs.«165755_j59588376264936_2_alg».proof.Proof.KernelIdealR1
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.Sem

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-- Reading back a whole scratch buffer written with `X` gives `X`. -/
theorem rd0 (h : (scM1_0 : Memref sig .tc .vmem S1024x128 .f32).IsWhole) (X : Vec F S1024x128 .f32) :
    View.read (Elt F) (View.whole cc1_scratch0) (h.unread X) = X := h.read_unread X
theorem rd1 (h : (scM1_1 : Memref sig .tc .vmem S1024x1 .f32).IsWhole) (X : Vec F S1024x1 .f32) :
    View.read (Elt F) (View.whole cc1_scratch1) (h.unread X) = X := h.read_unread X

/-- The 2048 rows of the support matrix facing column block `i 1`. -/
def suppCols (x1 : Vec F S8192x128 .f32) (i : grid1.Coords) : Vec F S2048x128 .f32 :=
  View.ld x1 (Rect.unit (s := S8192x128) (k1_off1 i) S2048x128.size (k1_off1_inb i))
/-- The 1024 rows of the support matrix of row block `i 0`. -/
def suppRows (x1 : Vec F S8192x128 .f32) (i : grid1.Coords) (hk : k1_cond2 i = 1#1) : Vec F S1024x128 .f32 :=
  View.ld x1 (Rect.unit (s := S8192x128) (k1_off2 i) S1024x128.size (k1_off2_inb i hk))

theorem soutA0 (c : Dev nD) (t : Fin cfg1.N) (h0 : t.val % 4 = 0) :
    sout1_A_0 V c t h0 = k1_pay4 (iblk1 V c 0 t) (suppCols (iblk1 V c 1 t) (grid1.coords t)) k1_pay1 := by
  unfold sout1_A_0 suppCols
  rw [View.read_writes_junk_eq_canon]
  unfold runA kernelRun1_A
  dsimp only
  sl_unfold_run_names
  first | rw [View.canon_cons_unit_zero hz2] | rw [View.canon_unit_zero hz2]
  simp only [View.readAt_eq_ld, Memref.IsWhole.read_unread, View.ld_unit_zero (S := S1024x2048) hz2, View.ld_unit_zero (S := S1x128) hz2, View.ld_unit_zero (S := S1024x128) hz2, View.ld_unit_zero (S := S1024x1) hz2, View.readCov_cons_toLoadRect, rd0, rd1]
  all_goals rfl

theorem soutA1 (c : Dev nD) (t : Fin cfg1.N) (h0 : t.val % 4 = 0) :
    sout1_A_1 V c t h0 = k1_pay3 (iblk1 V c 0 t) k1_pay2 := by
  unfold sout1_A_1
  rw [View.read_writes_junk_eq_canon]
  unfold runA kernelRun1_A
  dsimp only
  sl_unfold_run_names
  first | rw [View.canon_cons_unit_zero hz2] | rw [View.canon_unit_zero hz2]
  simp only [View.readAt_eq_ld, Memref.IsWhole.read_unread, View.ld_unit_zero (S := S1024x2048) hz2, View.ld_unit_zero (S := S1x128) hz2, View.ld_unit_zero (S := S1024x128) hz2, View.ld_unit_zero (S := S1024x1) hz2, View.readCov_cons_toLoadRect, rd0, rd1]
  all_goals rfl

theorem soutB0 (c : Dev nD) (t : Fin cfg1.N) (h0 : ¬t.val % 4 = 0) (h1 : ¬t.val % 4 = 3) (p0 : Vec F S1024x128 .f32) (p1 : Vec F S1024x1 .f32) :
    sout1_B_0 V c t h0 h1 p0 p1 = k1_pay4 (iblk1 V c 0 t) (suppCols (iblk1 V c 1 t) (grid1.coords t)) p0 := by
  unfold sout1_B_0 suppCols
  rw [View.read_writes_junk_eq_canon]
  unfold runB kernelRun1_B
  dsimp only
  sl_unfold_run_names
  first | rw [View.canon_cons_unit_zero hz2] | rw [View.canon_unit_zero hz2]
  simp only [View.readAt_eq_ld, Memref.IsWhole.read_unread, View.ld_unit_zero (S := S1024x2048) hz2, View.ld_unit_zero (S := S1x128) hz2, View.ld_unit_zero (S := S1024x128) hz2, View.ld_unit_zero (S := S1024x1) hz2, View.readCov_cons_toLoadRect, rd0, rd1]
  all_goals rfl

theorem soutB1 (c : Dev nD) (t : Fin cfg1.N) (h0 : ¬t.val % 4 = 0) (h1 : ¬t.val % 4 = 3) (p0 : Vec F S1024x128 .f32) (p1 : Vec F S1024x1 .f32) :
    sout1_B_1 V c t h0 h1 p0 p1 = k1_pay3 (iblk1 V c 0 t) p1 := by
  unfold sout1_B_1
  rw [View.read_writes_junk_eq_canon]
  unfold runB kernelRun1_B
  dsimp only
  sl_unfold_run_names
  first | rw [View.canon_cons_unit_zero hz2] | rw [View.canon_unit_zero hz2]
  simp only [View.readAt_eq_ld, Memref.IsWhole.read_unread, View.ld_unit_zero (S := S1024x2048) hz2, View.ld_unit_zero (S := S1x128) hz2, View.ld_unit_zero (S := S1024x128) hz2, View.ld_unit_zero (S := S1024x1) hz2, View.readCov_cons_toLoadRect, rd0, rd1]
  all_goals rfl

theorem soutC0 (c : Dev nD) (t : Fin cfg1.N) (h0 : ¬t.val % 4 = 0) (h1 : t.val % 4 = 3) (p0 : Vec F S1024x128 .f32) (p1 : Vec F S1024x1 .f32) :
    sout1_C_0 V c t h0 h1 p0 p1 = k1_pay4 (iblk1 V c 0 t) (suppCols (iblk1 V c 1 t) (grid1.coords t)) p0 := by
  unfold sout1_C_0 suppCols
  rw [View.read_writes_junk_eq_canon]
  unfold runC kernelRun1_C
  dsimp only
  sl_unfold_run_names
  first | rw [View.canon_cons_unit_zero hz2] | rw [View.canon_unit_zero hz2]
  simp only [View.readAt_eq_ld, Memref.IsWhole.read_unread, View.ld_unit_zero (S := S1024x2048) hz2, View.ld_unit_zero (S := S1x128) hz2, View.ld_unit_zero (S := S1024x128) hz2, View.ld_unit_zero (S := S1024x1) hz2, View.readCov_cons_toLoadRect, rd0, rd1]
  all_goals rfl

theorem soutC1 (c : Dev nD) (t : Fin cfg1.N) (h0 : ¬t.val % 4 = 0) (h1 : t.val % 4 = 3) (p0 : Vec F S1024x128 .f32) (p1 : Vec F S1024x1 .f32) :
    sout1_C_1 V c t h0 h1 p0 p1 = k1_pay3 (iblk1 V c 0 t) p1 := by
  unfold sout1_C_1
  rw [View.read_writes_junk_eq_canon]
  unfold runC kernelRun1_C
  dsimp only
  sl_unfold_run_names
  first | rw [View.canon_cons_unit_zero hz2] | rw [View.canon_unit_zero hz2]
  simp only [View.readAt_eq_ld, Memref.IsWhole.read_unread, View.ld_unit_zero (S := S1024x2048) hz2, View.ld_unit_zero (S := S1x128) hz2, View.ld_unit_zero (S := S1024x128) hz2, View.ld_unit_zero (S := S1024x1) hz2, View.readCov_cons_toLoadRect, rd0, rd1]
  all_goals rfl

theorem outC3 (c : Dev nD) (t : Fin cfg1.N) (h0 : ¬t.val % 4 = 0) (h1 : t.val % 4 = 3) (p0 : Vec F S1024x128 .f32) (p1 : Vec F S1024x1 .f32) :
    out1_C_3 V c t h0 h1 p0 p1 = k1_pay5 (suppRows (iblk1 V c 1 t) (grid1.coords t) (hcC1 t h1))
      (k1_pay4 (iblk1 V c 0 t) (suppCols (iblk1 V c 1 t) (grid1.coords t)) p0) (k1_pay3 (iblk1 V c 0 t) p1) (iblk1 V c 2 t) := by
  unfold out1_C_3 suppRows suppCols
  rw [View.read_writes_junk_eq_canon]
  unfold runC kernelRun1_C
  dsimp only
  sl_unfold_run_names
  first | rw [View.canon_cons_unit_zero hz2] | rw [View.canon_unit_zero hz2]
  simp only [View.readAt_eq_ld, Memref.IsWhole.read_unread, View.ld_unit_zero (S := S1024x2048) hz2, View.ld_unit_zero (S := S1x128) hz2, View.ld_unit_zero (S := S1024x128) hz2, View.ld_unit_zero (S := S1024x1) hz2, View.readCov_cons_toLoadRect, rd0, rd1]
  all_goals rfl

end Cert.KernelIdeal.Val

end
-- ==== Proof.KernelIdealV1Chain.lean ====
/-
  The scratch buffers and the output block through the four points of one row block, generic in the float instance.

  At the first column block the scratch buffers are a function of the point's blocks alone; at each later point they
  are the same payloads applied to what the point before left; at the last column block the output block is the final
  payload of the new scratch contents. So nothing of the 32-point recursion is left but four steps per row block.
-/
import proofs.«165755_j59588376264936_2_alg».proof.Proof.KernelIdealV1Pieces

set_option maxRecDepth 16384

noncomputable section

namespace Cert.KernelIdeal.Val

open Cert.KernelIdeal Cert.KernelIdeal.Gen Cert.KernelIdeal.Frm
open Idealize.ShloMosaic Idealize.ShloMosaic.TcCoe
open Idealize.SL Idealize.SL.Sem

variable {F : FTy → Type} [FloatOps F]
variable (V : (c : Dev nD) → (b : Ref sig .tc) → Buf (Elt F) ((c : Thread nD τ).loc b))

/-- What the point before `t` left, in the recursion's own spelling. -/
abbrev prevAt (c : Dev nD) (t : Fin cfg1.N) := outsAt1 V c (t.val - 1) (Nat.lt_of_le_of_lt (Nat.sub_le _ _) t.isLt)

/-- It is the previous point's tuple. -/
theorem prevAt_eq (c : Dev nD) (t t' : Fin cfg1.N) (ht : t'.val + 1 = t.val) :
    prevAt V c t = outsAt1 V c t'.val t'.isLt := by
  have e : ∀ (n : ℕ) (hn : n < cfg1.N), n = t'.val → outsAt1 V c n hn = outsAt1 V c t'.val t'.isLt := by
    intro n hn h; subst h; rfl
  exact e _ _ (by omega)

/-! ## The tuple's components at a point of each case -/

theorem A_s0 (c : Dev nD) (t : Fin cfg1.N) (h0 : t.val % 4 = 0) : (outsAt1 V c t.val t.isLt).2.1 = sout1_A_0 V c t h0 := by
  rw [outsAt1_A V c t h0]
theorem A_s1 (c : Dev nD) (t : Fin cfg1.N) (h0 : t.val % 4 = 0) : (outsAt1 V c t.val t.isLt).2.2 = sout1_A_1 V c t h0 := by
  rw [outsAt1_A V c t h0]
theorem B_s0 (c : Dev nD) (t : Fin cfg1.N) (h0 : ¬t.val % 4 = 0) (h1 : ¬t.val % 4 = 3) :
    (outsAt1 V c t.val t.isLt).2.1 = sout1_B_0 V c t h0 h1 (prevAt V c t).2.1 (prevAt V c t).2.2 := by
  rw [outsAt1_B V c t h0 h1]
theorem B_s1 (c : Dev nD) (t : Fin cfg1.N) (h0 : ¬t.val % 4 = 0) (h1 : ¬t.val % 4 = 3) :
    (outsAt1 V c t.val t.isLt).2.2 = sout1_B_1 V c t h0 h1 (prevAt V c t).2.1 (prevAt V c t).2.2 := by
  rw [outsAt1_B V c t h0 h1]
theorem C_s0 (c : Dev nD) (t : Fin cfg1.N) (h0 : ¬t.val % 4 = 0) (h1 : t.val % 4 = 3) :
    (outsAt1 V c t.val t.isLt).2.1 = sout1_C_0 V c t h0 h1 (prevAt V c t).2.1 (prevAt V c t).2.2 := by
  rw [outsAt1_C V c t h0 h1]
theorem C_s1 (c : Dev nD) (t : Fin cfg1.N) (h0 : ¬t.val % 4 = 0) (h1 : t.val % 4 = 3) :
    (outsAt1 V c t.val t.isLt).2.2 = sout1_C_1 V c t h0 h1 (prevAt V c t).2.1 (prevAt V c t).2.2 := by
  rw [outsAt1_C V c t h0 h1]
theorem C_out (c : Dev nD) (t : Fin cfg1.N) (h0 : ¬t.val % 4 = 0) (h1 : t.val % 4 = 3) :
    (outsAt1 V c t.val t.isLt).1 = out1_C_3 V c t h0 h1 (prevAt V c t).2.1 (prevAt V c t).2.2 := by
  rw [outsAt1_C V c t h0 h1]

/-! ## The steps -/

/-- First column block: both scratch buffers from the point's blocks alone (they are reset first). -/
theorem scr_first (c : Dev nD) (t : Fin cfg1.N) (h0 : t.val % 4 = 0) :
    (outsAt1 V c t.val t.isLt).2.1 = k1_pay4 (iblk1 V c 0 t) (suppCols (iblk1 V c 1 t) (grid1.coords t)) k1_pay1
    ∧ (outsAt1 V c t.val t.isLt).2.2 = k1_pay3 (iblk1 V c 0 t) k1_pay2 :=
  ⟨(A_s0 V c t h0).trans (soutA0 V c t h0), (A_s1 V c t h0).trans (soutA1 V c t h0)⟩

/-- A later column block: the same payloads over what the point before left. -/
theorem scr_next (c : Dev nD) (t t' : Fin cfg1.N) (ht : t'.val + 1 = t.val) (h0 : ¬t.val % 4 = 0) :
    (outsAt1 V c t.val t.isLt).2.1 = k1_pay4 (iblk1 V c 0 t) (suppCols (iblk1 V c 1 t) (grid1.coords t)) (outsAt1 V c t'.val t'.isLt).2.1
    ∧ (outsAt1 V c t.val t.isLt).2.2 = k1_pay3 (iblk1 V c 0 t) (outsAt1 V c t'.val t'.isLt).2.2 := by
  have hp := prevAt_eq V c t t' ht
  by_cases h1 : t.val % 4 = 3
  · have e0 := (C_s0 V c t h0 h1).trans (soutC0 V c t h0 h1 _ _)
    have e1 := (C_s1 V c t h0 h1).trans (soutC1 V c t h0 h1 _ _)
    rw [hp] at e0 e1
    exact ⟨e0, e1⟩
  · have e0 := (B_s0 V c t h0 h1).trans (soutB0 V c t h0 h1 _ _)
    have e1 := (B_s1 V c t h0 h1).trans (soutB1 V c t h0 h1 _ _)
    rw [hp] at e0 e1
    exact ⟨e0, e1⟩

/-- Last column block: the output block from the new scratch contents, the row block's rows of the support matrix and
    the bias row. -/
theorem out_last (c : Dev nD) (t t' : Fin cfg1.N) (ht : t'.val + 1 = t.val) (h0 : ¬t.val % 4 = 0) (h1 : t.val % 4 = 3) :
    (outsAt1 V c t.val t.isLt).1 = k1_pay5 (suppRows (iblk1 V c 1 t) (grid1.coords t) (hcC1 t h1))
      (k1_pay4 (iblk1 V c 0 t) (suppCols (iblk1 V c 1 t) (grid1.coords t)) (outsAt1 V c t'.val t'.isLt).2.1)
      (k1_pay3 (iblk1 V c 0 t) (outsAt1 V c t'.val t'.isLt).2.2) (iblk1 V c 2 t) := by
  have e := (C_out V c t h0 h1).trans (outC3 V c t h0 h1 _ _)
  rw [prevAt_eq V c t t' ht] at e
  exact e

end Cert.KernelIdeal.Val

end
-- ==== Proof.Spec.lean ====
/-
  The result both programs compute, as one function of the four argument arrays over the extended reals.

  With  support = input · weight  (an [8192,256] by [256,128] product) and the columns of the adjacency matrix cut
  into four blocks of 2048, entry (r, c) of the result is

      1 / (rowsum r + 1) · (acc r c + support r c) + bias c

  where  rowsum r = Σ_blocks Σ_j adj r (2048·block + j)  and
         acc r c  = Σ_blocks Σ_j adj r (2048·block + j) · support (2048·block + j) c.

  This is the normalised propagation  D⁻¹ (A + I) (X W) + b  with D the row sums of A + I: the self loop is
  added to the product and to the degree separately instead of to the matrix.
-/
import Idealize.ShloMosaic.PureOps.Ideal
import Idealize.ShloMosaic.Lib.ValueIdx

noncomputable section

namespace Cert.Spec

open Idealize.ShloMosaic Idealize.ShloMosaic.ValueIdx

abbrev SIn : Shape := ⟨2, ![8192, 256]⟩
abbrev SAdj : Shape := ⟨2, ![8192, 8192]⟩
abbrev SWt : Shape := ⟨2, ![256, 128]⟩
abbrev SBias : Shape := ⟨1, ![128]⟩
abbrev SOut : Shape := ⟨2, ![8192, 128]⟩

/-- Column `j` of column block `kb` of the adjacency matrix: `2048 · kb + j`. -/
def col (kb : Fin 4) (j : Fin 2048) : Fin 8192 := ⟨kb.val * 2048 + j.val, by omega⟩

/-- Row `i` of row block `rb`: `1024 · rb + i`. -/
def row (rb : Fin 8) (i : Fin 1024) : Fin 8192 := ⟨rb.val * 1024 + i.val, by omega⟩

/-- `support = input · weight`, entry (r, c). -/
def support (x : SIn.Idx → EReal) (w : SWt.Idx → EReal) (r : Fin 8192) (c : Fin 128) : EReal :=
  ∑ k : Fin 256, x (ix2 r k) * w (ix2 k c)

/-- The sum of row `r` of the adjacency matrix, block by block. -/
def rowsum (a : SAdj.Idx → EReal) (r : Fin 8192) : EReal :=
  ∑ kb : Fin 4, ∑ j : Fin 2048, a (ix2 r (col kb j))

/-- Entry (r, c) of `adj · support`, block by block. -/
def acc (x : SIn.Idx → EReal) (a : SAdj.Idx → EReal) (w : SWt.Idx → EReal) (r : Fin 8192) (c : Fin 128) : EReal :=
  ∑ kb : Fin 4, ∑ j : Fin 2048, a (ix2 r (col kb j)) * support x w (col kb j) c

/-- Entry (r, c) of the result. -/
def outAt (x : SIn.Idx → EReal) (a : SAdj.Idx → EReal) (w : SWt.Idx → EReal) (b : SBias.Idx → EReal)
    (r : Fin 8192) (c : Fin 128) : EReal :=
  Ideal.div 1 (rowsum a r + 1) * (acc x a w r c + support x w r c) + b (ix1 c)

/-- The result array. -/
def out (x : SIn.Idx → EReal) (a : SAdj.Idx → EReal) (w : SWt.Idx → EReal) (b : SBias.Idx → EReal) : SOut.Idx → EReal :=
  fun i => outAt x a w b (i 0) (i 1)

end Cert.Spec

end
-- ==== Proof.KernelIdealPay.lean ====
/-
  The second kernel region's stored values read at an index, over the extended reals, and two of its input
  blocks read off their arrays.

  The body stores five values. Two are zero splats (the reset of the partial product and of the partial row sums).
  The third adds to the partial row sums the sum of each row of the loaded adjacency block over its 2048 columns.
  The fourth adds to the partial product the matrix product of the adjacency block with a 2048-row block of the
  support matrix; the narrowing casts in front of the product are the identity on extended reals. The fifth is the
  output block: with d = 1 / (row sum + 1), the comparison "d differs from d" is false for every extended real, so
  the guarding select returns d, and entry (r, q) is  d r · (acc r q + support r q) + bias q.
-/
import proofs.«165755_j59588376264936_2_alg».proof.Proof.Gen.KernelIdeal.Skeleton
import proofs.«165755_j59588376264936_2_alg».proof.Proof.KernelIdealR1Runs
import proofs.«165755_j59588376264936_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx Idealize.ShloMosaic.TcCoe

/-! ## The two resets -/

/-- The reset of the partial product stores zero everywhere. -/
theorem pay1_apply (i : S1024x128.Idx) : k1_pay1 (F := Ideal) i = 0 := by
  unfold k1_pay1
  refine (congrFun (shapeCast_self _ _) i).trans ?_
  exact Ideal.ofBits_zero_f32

/-- The reset of the partial row sums stores zero everywhere. -/
theorem pay2_apply (i : S1024x1.Idx) : k1_pay2 (F := Ideal) i = 0 := by
  unfold k1_pay2
  refine (congrFun (shapeCast_self _ _) i).trans ?_
  exact Ideal.ofBits_zero_f32

/-! ## The partial product -/

/-- The product's dimension numbers: rows of the adjacency block, one contracted axis of extent 2048, columns of the
    support block. -/
abbrev dims1 : DotDims S1024x2048 S2048x128 S1024x128 := dot_S1024x2048_S2048x128_S1024x128_1_0_0_1_n_n

/-- The left operand is read at the output's row … -/
theorem lhs1_row (i : S1024x128.Idx) (u : dims1.contr.Idx) : (dims1.lhsIdx i u 0).val = (i 0).val := by
  unfold DotDims.lhsIdx
  rw [dif_neg (show ¬(0 : Fin S1024x2048.rank) ∈ dims1.lhsBatch by decide),
    dif_pos (show (0 : Fin S1024x2048.rank) ∈ dims1.lhsNonContracting by decide)]
  rfl
/-- … and at the contraction coordinate as its column. -/
theorem lhs1_col (i : S1024x128.Idx) (u : dims1.contr.Idx) : (dims1.lhsIdx i u 1).val = (u ⟨0, by decide⟩).val :=
  dims1.lhsIdx_val_of_single rfl i u
/-- The right operand is read at the contraction coordinate as its row … -/
theorem rhs1_row (i : S1024x128.Idx) (u : dims1.contr.Idx) : (dims1.rhsIdx i u 0).val = (u ⟨0, by decide⟩).val :=
  dims1.rhsIdx_val_of_single rfl i u
/-- … and at the output's column. -/
theorem rhs1_col (i : S1024x128.Idx) (u : dims1.contr.Idx) : (dims1.rhsIdx i u 1).val = (i 1).val := by
  unfold DotDims.rhsIdx
  rw [dif_neg (show ¬(1 : Fin S2048x128.rank) ∈ dims1.rhsBatch by decide),
    dif_pos (show (1 : Fin S2048x128.rank) ∈ dims1.rhsNonContracting by decide)]
  rfl

/-- Entry (r, q) of the new partial product: the old entry plus row r of the adjacency block times column q of the
    support block. -/
theorem pay4_apply (x0 : Vec Ideal S1024x2048 .f32) (y : Vec Ideal S2048x128 .f32) (p0 : Vec Ideal S1024x128 .f32)
    (r : Fin 1024) (q : Fin 128) :
    k1_pay4 x0 y p0 (ix2 r q) = p0 (ix2 r q) + ∑ j : Fin 2048, x0 (ix2 r j) * y (ix2 j q) := by
  unfold k1_pay4
  refine (congrFun (shapeCast_self _ _) (ix2 r q)).trans ?_
  refine congrArg (p0 (ix2 r q) + ·) ?_
  refine (Ideal.matmul_constant_zero_apply dims1 none _ _ (ix2 r q)).trans ?_
  rw [← Equiv.sum_comp (contrEquiv1 dims1 2048 rfl rfl).symm]
  refine Finset.sum_congr rfl fun k _ => ?_
  have hk := contrEquiv1_symm_val dims1 2048 rfl rfl k
  have el : dims1.lhsIdx (ix2 r q) ((contrEquiv1 dims1 2048 rfl rfl).symm k) = ix2 r k := funext fun a => Fin.ext (by
    match a with
    | ⟨0, _⟩ => exact lhs1_row _ _
    | ⟨1, _⟩ => exact (lhs1_col _ _).trans hk)
  have er : dims1.rhsIdx (ix2 r q) ((contrEquiv1 dims1 2048 rfl rfl).symm k) = ix2 k q := funext fun a => Fin.ext (by
    match a with
    | ⟨0, _⟩ => exact (rhs1_row _ _).trans hk
    | ⟨1, _⟩ => exact rhs1_col _ _)
  have hy : shapeCast S2048x128 y shapeCasts_S2048x128_S2048x128 = y := shapeCast_self y _
  exact congr (congrArg HMul.hMul (congrArg x0 el)) ((congrFun hy _).trans (congrArg y er))

/-! ## The partial row sums -/

/-- A vector of length a viewed as a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of the adjacency block over its columns, at row r. -/
theorem lane_sum_apply (x0 : Vec Ideal S1024x2048 .f32) (hφ : FKind.Formats .f32)
    (hacc : (0x00000000#32 : BitVec 32) = FKind.add.neutral .f32 hφ) (r : Fin 1024) :
    multiReduction (F := Ideal) .add [1] S1024 x0 0x00000000#32 reduces_S1024x2048_S1024 hφ hacc (ix1 r)
      = ∑ j : Fin 2048, x0 (ix2 r j) := by
  refine (Ideal.multiReduction_add_single x0 0x00000000#32 reduces_S1024x2048_S1024 hφ hacc (ix1 r)).trans ?_
  refine Finset.sum_congr rfl fun k _ => congrArg x0 (funext fun a => Fin.ext ?_)
  match a with
  | ⟨0, _⟩ => rfl
  | ⟨1, _⟩ => rfl

/-- Row r of the new partial row sums: the old entry plus the sum of row r of the adjacency block. -/
theorem pay3_apply (x0 : Vec Ideal S1024x2048 .f32) (p1 : Vec Ideal S1024x1 .f32) (r : Fin 1024) :
    k1_pay3 x0 p1 (ix2 r (0 : Fin 1)) = p1 (ix2 r (0 : Fin 1)) + ∑ j : Fin 2048, x0 (ix2 r j) := by
  unfold k1_pay3
  refine (congrFun (shapeCast_self _ _) (ix2 r (0 : Fin 1))).trans ?_
  refine congrArg (p1 (ix2 r (0 : Fin 1)) + ·) ?_
  refine (shapeCast_a_a1_apply _ shapeCasts_S1024_S1024x1 r (0 : Fin 1)).trans ?_
  exact lane_sum_apply x0 _ _ r

/-! ## The output block -/

/-- A column [a, 1] broadcast over b columns reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word 0x3F800000 is the real number one. -/
theorem one_f32 : Ideal.ofBits .f32 0x3F800000#32 = 1 := IdealRules.sign_bit.ideal_onePat .f32

/-- No extended real differs from itself, so a select guarded by "d differs from d" returns d. -/
theorem select_one_self {S : Shape} (z d : FVec Ideal S .f32) (i : S.Idx) : select (cmpf .one d d) z d i = d i := by
  have h : FloatOps.cmpf .one (d i) (d i) = 0#1 := by
    show Ideal.cmp .one (d i) (d i) = 0#1
    simp [Ideal.cmp]
  show Scalar.select (FloatOps.cmpf .one (d i) (d i)) (z i) (d i) = d i
  rw [h]
  exact select_zero _ _

/-- Entry (r, q) of the output block: the inverse of (row sum + 1) times (partial product + support row), plus
    the bias. -/
theorem pay5_apply (s a : Vec Ideal S1024x128 .f32) (rs : Vec Ideal S1024x1 .f32) (b : Vec Ideal S1x128 .f32)
    (r : Fin 1024) (q : Fin 128) :
    k1_pay5 s a rs b (ix2 r q)
      = Ideal.div 1 (rs (ix2 r (0 : Fin 1)) + 1) * (a (ix2 r q) + s (ix2 r q)) + b (ix2 (0 : Fin 1) q) := by
  unfold k1_pay5
  refine (addf_apply _ _ (ix2 r q)).trans ?_
  refine congrArg₂ (· + ·) ?_ ?_
  · refine (mulf_apply _ _ (ix2 r q)).trans ?_
    refine congrArg₂ (· * ·) ?_ ?_
    · refine (broadcastTo_a1_ab_apply _ broadcasts_S1024x1_S1024x128 r q).trans ?_
      refine (select_one_self _ _ (ix2 r (0 : Fin 1))).trans ?_
      show Ideal.div (Ideal.ofBits .f32 0x3F800000#32) (rs (ix2 r (0 : Fin 1)) + Ideal.ofBits .f32 0x3F800000#32) = _
      rw [one_f32]
    · exact congrArg (a (ix2 r q) + ·) (congrFun (shapeCast_self s _) (ix2 r q))
  · refine (broadcastTo_1b_ab_apply _ broadcasts_S1x128_S1024x128 r q).trans ?_
    exact congrFun (shapeCast_self b _) (ix2 (0 : Fin 1) q)

/-! ## Two input blocks read off their arrays

The grid is 8 row blocks by 4 column blocks, point t = 4 · (row block) + (column block). The adjacency window's
block at t is rows 1024 · (t / 4) … and columns 2048 · (t % 4) … of the matrix; the bias window's block is the whole
row at every point. -/

/-- The adjacency window's block index at point t: (t / 4, t % 4). -/
theorem idx1_0 : ∀ t : Fin cfg1.N, win1_0.index t (0 : Fin 2) = t.val / 4 ∧ win1_0.index t (1 : Fin 2) = t.val % 4 :=
  (by decide +kernel : ∀ t : Fin grid1.N, win1_0.index t (0 : Fin 2) = t.val / 4 ∧ win1_0.index t (1 : Fin 2) = t.val % 4)

/-- The bias window's block index is (0, 0) at every point. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- Entry (r, j) of the adjacency block at the point of row block rb and column block kb is entry
    (1024 · rb + r, 2048 · kb + j) of the matrix. -/
theorem adj_block (V : (c : Dev nD) → (b : Ref sig .tc) → Buf (Elt Ideal) ((c : Thread nD τ).loc b)) (c : Dev nD)
    (t : Fin cfg1.N) (rb : Fin 8) (kb : Fin 4) (ht : t.val = 4 * rb.val + kb.val) (r : Fin 1024) (j : Fin 2048) :
    Cert.KernelIdeal.Frm.iblk1 V c 0 t (ix2 r j) = V c main_arg1 (ix2 (Cert.Spec.row rb r) (Cert.Spec.col kb j)) := by
  obtain ⟨e0, e1⟩ := idx1_0 t
  have hkb := kb.isLt
  show V c main_arg1 (((cfg1.win 0).blk t).view.emb (ix2 r j)) = _
  refine congrArg (V c main_arg1) (funext fun a => Fin.ext ?_)
  match a with
  | ⟨0, _⟩ =>
    show win1_0.index t (0 : Fin 2) * 1024 + 1 * r.val = rb.val * 1024 + r.val
    omega
  | ⟨1, _⟩ =>
    show win1_0.index t (1 : Fin 2) * 2048 + 1 * j.val = kb.val * 2048 + j.val
    omega

/-- Entry (0, q) of the bias block at any point is entry (0, q) of the bias row. -/
theorem bias_block (V : (c : Dev nD) → (b : Ref sig .tc) → Buf (Elt Ideal) ((c : Thread nD τ).loc b)) (c : Dev nD)
    (t : Fin cfg1.N) (rb : Fin 8) (kb : Fin 4) (ht : t.val = 4 * rb.val + kb.val) (q : Fin 128) :
    Cert.KernelIdeal.Frm.iblk1 V c 2 t (ix2 (0 : Fin 1) q) = V c main_v1 (ix2 (0 : Fin 1) q) := by
  obtain ⟨e0, e1⟩ := idx1_2 t
  show V c main_v1 (((cfg1.win 2).blk t).view.emb (ix2 (0 : Fin 1) q)) = _
  refine congrArg (V c main_v1) (funext fun a => Fin.ext ?_)
  match a with
  | ⟨0, _⟩ =>
    show win1_2.index t (0 : Fin 2) * 1 + 1 * 0 = 0
    omega
  | ⟨1, _⟩ =>
    show win1_2.index t (1 : Fin 2) * 128 + 1 * q.val = q.val
    omega

end Cert.KernelIdeal.Val

end
-- ==== Proof.KernelIdealV1Supp.lean ====
/-
  Two slices of the support matrix, as the second kernel region's body reads them.

  At grid point t = 4·rb + kb the body is handed the whole [8192, 128] support matrix (the window's one block never
  moves). It loads the 2048 rows facing column block kb at row offset 2048·kb, and in the last column block the row
  block's own 1024 rows at row offset 1024·rb; both offsets are computed in 32-bit words and do not wrap. So entry
  (j, q) of the first slice is the matrix at row 2048·kb + j, and entry (r, q) of the second is the matrix at row
  1024·rb + r.
-/
import proofs.«165755_j59588376264936_2_alg».proof.Proof.KernelIdealV1Pieces
import proofs.«165755_j59588376264936_2_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL.Sem

/-- Decided over the grid: the two slices' row offsets as numbers of the point (no wrap-around in the 32-bit
    products), their zero column offsets, and the support window's block index, zero on both axes. -/
theorem supp_facts : ∀ t : Fin cfg1.N,
    k1_off1 (grid1.coords t) (0 : Fin 2) = 2048 * (t.val % 4) ∧ k1_off1 (grid1.coords t) (1 : Fin 2) = 0
    ∧ k1_off2 (grid1.coords t) (0 : Fin 2) = 1024 * (t.val / 4) ∧ k1_off2 (grid1.coords t) (1 : Fin 2) = 0
    ∧ win1_1.index t (0 : Fin 2) = 0 ∧ win1_1.index t (1 : Fin 2) = 0 :=
  (by decide +kernel : ∀ t : Fin grid1.N, _)

variable (V : (c : Dev nD) → (b : Ref sig .tc) → Buf (Elt Ideal) ((c : Thread nD τ).loc b))

/-- The support window's block at every point is the whole support matrix. -/
theorem supp_block_apply (c : Dev nD) (t : Fin cfg1.N) (y : S8192x128.Idx) :
    (iblk1 V c 1 t : Vec Ideal S8192x128 .f32) y = V c main_v0 y := by
  obtain ⟨-, -, -, -, e0, e1⟩ := supp_facts t
  unfold iblk1
  rw [View.read_apply]
  show V c main_v0 _ = V c main_v0 y
  refine congrArg (V c main_v0) ?_
  funext a
  apply Fin.ext
  match a with
  | ⟨0, _⟩ => show win1_1.index t (0 : Fin 2) * 8192 + 1 * (y 0).val = (y 0).val; rw [e0]; omega
  | ⟨1, _⟩ => show win1_1.index t (1 : Fin 2) * 128 + 1 * (y 1).val = (y 1).val; rw [e1]; omega

/-- Entry (j, q) of the rows facing column block kb: the support matrix at row 2048·kb + j, column q. -/
theorem suppCols_apply (c : Dev nD) (t : Fin cfg1.N) (rb : Fin 8) (kb : Fin 4) (ht : t.val = 4 * rb.val + kb.val)
    (j : Fin 2048) (q : Fin 128) :
    suppCols (Cert.KernelIdeal.Frm.iblk1 V c 1 t) (grid1.coords t) (ix2 j q) = V c main_v0 (ix2 (Cert.Spec.col kb j) q) := by
  obtain ⟨f0, f1, -⟩ := supp_facts t
  have hkb : kb.val < 4 := kb.isLt
  unfold suppCols
  show (iblk1 V c 1 t : Vec Ideal S8192x128 .f32)
      ((Rect.unit (s := S8192x128) (k1_off1 (grid1.coords t)) S2048x128.size (k1_off1_inb (grid1.coords t))).idx (ix2 j q)) = _
  rw [supp_block_apply]
  refine congrArg (V c main_v0) ?_
  funext a
  apply Fin.ext
  match a with
  | ⟨0, _⟩ => show k1_off1 (grid1.coords t) (0 : Fin 2) + 1 * j.val = kb.val * 2048 + j.val; rw [f0, ht]; omega
  | ⟨1, _⟩ => show k1_off1 (grid1.coords t) (1 : Fin 2) + 1 * q.val = q.val; rw [f1]; omega

/-- Entry (r, q) of the row block's own rows: the support matrix at row 1024·rb + r, column q. -/
theorem suppRows_apply (c : Dev nD) (t : Fin cfg1.N) (rb : Fin 8) (kb : Fin 4) (ht : t.val = 4 * rb.val + kb.val)
    (hk : k1_cond2 (grid1.coords t) = 1#1) (r : Fin 1024) (q : Fin 128) :
    suppRows (Cert.KernelIdeal.Frm.iblk1 V c 1 t) (grid1.coords t) hk (ix2 r q) = V c main_v0 (ix2 (Cert.Spec.row rb r) q) := by
  obtain ⟨-, -, f0, f1, -⟩ := supp_facts t
  have hkb : kb.val < 4 := kb.isLt
  unfold suppRows
  show (iblk1 V c 1 t : Vec Ideal S8192x128 .f32)
      ((Rect.unit (s := S8192x128) (k1_off2 (grid1.coords t)) S1024x128.size (k1_off2_inb (grid1.coords t) hk)).idx (ix2 r q)) = _
  rw [supp_block_apply]
  refine congrArg (V c main_v0) ?_
  funext a
  apply Fin.ext
  match a with
  | ⟨0, _⟩ => show k1_off2 (grid1.coords t) (0 : Fin 2) + 1 * r.val = rb.val * 1024 + r.val; rw [f0, ht]; omega
  | ⟨1, _⟩ => show k1_off2 (grid1.coords t) (1 : Fin 2) + 1 * q.val = q.val; rw [f1]; omega

end Cert.KernelIdeal.Val

end
-- ==== Proof.KernelIdealV0Pay.lean ====
/-
  The first kernel region's payload read at an index, over the extended reals.

  The body's one stored value is the matrix product of the two loaded blocks into a zero accumulator; the two
  narrowing casts in front of it are the identity on extended reals. So entry (p, q) of the stored block is the sum
  over k of  x0 (p, k) · x1 (k, q).
-/
import proofs.«165755_j59588376264936_2_alg».proof.Proof.Gen.KernelIdeal.Skeleton
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx

/-- The product's dimension numbers: rows of the left operand, one contracted axis of extent 256, columns of the right. -/
abbrev dims : DotDims S1024x256 S256x128 S1024x128 := dot_S1024x256_S256x128_S1024x128_1_0_0_1_n_n

/-- The left operand is read at the output's row … -/
theorem lhs_row (i : S1024x128.Idx) (u : dims.contr.Idx) : (dims.lhsIdx i u 0).val = (i 0).val := by
  unfold DotDims.lhsIdx
  rw [dif_neg (show ¬(0 : Fin S1024x256.rank) ∈ dims.lhsBatch by decide),
    dif_pos (show (0 : Fin S1024x256.rank) ∈ dims.lhsNonContracting by decide)]
  rfl
/-- … and at the contraction coordinate as its column. -/
theorem lhs_col (i : S1024x128.Idx) (u : dims.contr.Idx) : (dims.lhsIdx i u 1).val = (u ⟨0, by decide⟩).val :=
  dims.lhsIdx_val_of_single rfl i u
/-- The right operand is read at the contraction coordinate as its row … -/
theorem rhs_row (i : S1024x128.Idx) (u : dims.contr.Idx) : (dims.rhsIdx i u 0).val = (u ⟨0, by decide⟩).val :=
  dims.rhsIdx_val_of_single rfl i u
/-- … and at the output's column. -/
theorem rhs_col (i : S1024x128.Idx) (u : dims.contr.Idx) : (dims.rhsIdx i u 1).val = (i 1).val := by
  unfold DotDims.rhsIdx
  rw [dif_neg (show ¬(1 : Fin S256x128.rank) ∈ dims.rhsBatch by decide),
    dif_pos (show (1 : Fin S256x128.rank) ∈ dims.rhsNonContracting by decide)]
  rfl

/-- Entry (p, q) of the stored block: row p of the first block times column q of the second. -/
theorem pay_apply (x0 : Vec Ideal S1024x256 .f32) (x1 : Vec Ideal S256x128 .f32) (p : Fin 1024) (q : Fin 128) :
    k0_pay1 (F := Ideal) x0 x1 (ix2 p q) = ∑ k : Fin 256, x0 (ix2 p k) * x1 (ix2 k q) := by
  unfold k0_pay1
  refine (Ideal.matmul_constant_zero_apply dims none _ _ (ix2 p q)).trans ?_
  rw [← Equiv.sum_comp (contrEquiv1 dims 256 rfl rfl).symm]
  refine Finset.sum_congr rfl fun k _ => ?_
  have hk := contrEquiv1_symm_val dims 256 rfl rfl k
  have el : dims.lhsIdx (ix2 p q) ((contrEquiv1 dims 256 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 256 rfl rfl).symm k) = ix2 k q := funext fun a => Fin.ext (by
    match a with
    | ⟨0, _⟩ => exact (rhs_row _ _).trans hk
    | ⟨1, _⟩ => exact rhs_col _ _)
  rw [el, er]
  rfl

end Cert.KernelIdeal.Val

end
-- ==== Proof.KernelIdealV0.lean ====
/-
  The value of the first kernel region's output array, over the extended reals.

  At grid point t the region writes back the product of rows 1024·t … 1024·t + 1023 of the input with the whole
  weight, as rows 1024·t … 1024·t + 1023 of the output. The eight row blocks tile the output's 8192 rows, so after
  the region entry (r, c) of the output array is  Σ_k input (r, k) · weight (k, c):  the array holds support.
-/
import proofs.«165755_j59588376264936_2_alg».proof.Proof.KernelIdealR0
import proofs.«165755_j59588376264936_2_alg».proof.Proof.KernelIdealV0Pay
import proofs.«165755_j59588376264936_2_alg».proof.Proof.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: support of the input and the weight as the region finds them. -/
abbrev G (c : Dev nD) : S8192x128.Idx → EReal :=
  fun i => Cert.Spec.support (V c main_arg0) (V c main_arg2) (i 0) (i 1)

/-! ## One block -/

/-- Entry j of the block the body leaves: row (j 0) of the loaded input block times column (j 1) of the loaded weight. -/
theorem out_apply (x0 : Vec Ideal S1024x256 .f32) (x1 : Vec Ideal S256x128 .f32) (j : S1024x128.Idx) :
    out0_2 (F := Ideal) x0 x1 j = ∑ k : Fin 256, x0 (ix2 (j 0) k) * x1 (ix2 k (j 1)) := by
  obtain ⟨p, q, rfl⟩ : ∃ (p : Fin 1024) (q : Fin 128), j = ix2 p q := ⟨j 0, j 1, eq_ix2 j⟩
  unfold out0_2
  rw [View.canon_unit_zero hz]
  simp only [View.ld_unit_zero (S := S1024x256) hz, View.ld_unit_zero (S := S256x128) hz]
  exact pay_apply x0 x1 p q

/-- The printed index maps over the grid: the input's and the output's row block index is the point, every column
    block index is zero, and the weight's one block never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input window's block at point t is rows 1024·t … 1024·t + 1023 of the input. -/
theorem in_block_apply (c : Dev nD) (t : Fin cfg0.N) (p : Fin 1024) (k : Fin 256) (r : Fin 8192)
    (hr : r.val = 1024 * t.val + p.val) :
    (iblk0 V c 0 t : Vec Ideal S1024x256 .f32) (ix2 p k) = (V c main_arg0 : S8192x256.Idx → EReal) (ix2 r k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 1024 + 1 * p.val = r.val; rw [e0, hr]; omega
  | ⟨1, _⟩ => show win0_0.index t (1 : Fin 2) * 256 + 1 * k.val = k.val; rw [e1]; omega

/-- The weight window's block at every point is the whole weight. -/
theorem wt_block_apply (c : Dev nD) (t : Fin cfg0.N) (k : Fin 256) (q : Fin 128) :
    (iblk0 V c 1 t : Vec Ideal S256x128 .f32) (ix2 k q) = (V c main_arg2 : S256x128.Idx → EReal) (ix2 k q) := by
  obtain ⟨-, -, e0, e1, -⟩ := idx_facts t
  unfold iblk0
  rw [View.read_apply]
  show V c main_arg2 _ = V c main_arg2 _
  refine congrArg (V c main_arg2) ?_
  funext a
  apply Fin.ext
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- Entry j of what point t leaves in the output block is support at row 1024·t + (j 0), column (j 1). -/
theorem block_at (c : Dev nD) (t : Fin cfg0.N) (j : S1024x128.Idx) (i : S8192x128.Idx)
    (h0 : (i 0).val = 1024 * t.val + (j 0).val) (h1 : (i 1).val = (j 1).val) :
    out0_2 (F := Ideal) (iblk0 V c 0 t) (iblk0 V c 1 t) j = G V c i := by
  refine (out_apply _ _ j).trans ?_
  show _ = Cert.Spec.support (V c main_arg0) (V c main_arg2) (i 0) (i 1)
  unfold Cert.Spec.support
  refine Finset.sum_congr rfl fun k _ => ?_
  have hq : (j 1 : Fin 128) = i 1 := Fin.ext h1.symm
  rw [in_block_apply V c t (j 0) k (i 0) h0, wt_block_apply V c t k (j 1), hq]

/-! ## From blocks to the array -/

/-- What point t writes back is block t of support. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 (F := Ideal) V c).after 2 t) = _
  rw [after0_2]
  obtain ⟨-, -, -, -, e0, e1⟩ := idx_facts t
  funext j
  show out0_2 (F := Ideal) (iblk0 V c 0 t) (iblk0 V c 1 t) j = G V c (((cfg0.win 2).blk t).view.emb j)
  refine block_at V c t j _ ?_ ?_
  · show win0_2.index t (0 : Fin 2) * 1024 + 1 * (j 0).val = 1024 * t.val + (j 0).val; rw [e0]; omega
  · show win0_2.index t (1 : Fin 2) * 128 + 1 * (j 1).val = (j 1).val; rw [e1]; omega

/-- An index of the output array is in point t's block iff each coordinate is in the block's range on its axis. -/
theorem mem_blk (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- Row r of the output is in the block of point r / 1024: the eight row blocks tile the array. -/
theorem cover (i : S8192x128.Idx) :
    ∃ t : Fin cfg0.N, (cfg0.win 2).flush t = true ∧ i ∈ ((cfg0.win 2).blk t).view.set := by
  have hN : cfg0.N = 8 := N_0
  have hi0 : (i 0).val < 8192 := (i 0).isLt
  have hi1 : (i 1).val < 128 := (i 1).isLt
  let t : Fin cfg0.N := ⟨(i 0).val / 1024, by rw [hN]; omega⟩
  have ht : t.val = (i 0).val / 1024 := rfl
  obtain ⟨-, -, -, -, e0, e1⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; rw [e0, ht]; omega
  | ⟨1, _⟩ => show win0_2.index t (1 : Fin 2) * 128 ≤ (i 1).val ∧ (i 1).val < win0_2.index t (1 : Fin 2) * 128 + 128; rw [e1]; omega

/-- The output array after the region: support of the input and the weight, entry by entry. -/
theorem support_arr (c : Dev nD) :
    (dat0 (F := Ideal) V c).arrAt 2 cfg0.N = fun i => Cert.Spec.support (V c main_arg0) (V c main_arg2) (i 0) (i 1) :=
  (dat0 (F := Ideal) V c).arrAt_eq_of_cover 2 (G V c) (fun t _ => flushed_eq V c t) cover

end Cert.KernelIdeal.Val

end
-- ==== Proof.KernelIdealV1Entry.lean ====
/-
  What the second kernel region finds in its three input arrays.

  Between the launch and the second region two things happen: the first region writes support = input · weight
  into its output array and leaves every other buffer alone, and the host reshapes the bias from [128] to [1, 128].
  So the adjacency matrix is still as launched; the support array holds  Σ_k input (r, k) · weight (k, c)  of the
  launched input and weight; and entry (0, q) of the reshaped bias is entry q of the launched bias, a reshape keeping
  the elements in row-major order.
-/
import proofs.«165755_j59588376264936_2_alg».proof.Proof.KernelIdealMain
import proofs.«165755_j59588376264936_2_alg».proof.Proof.KernelIdealV0
import proofs.«165755_j59588376264936_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Val

open Cert.KernelIdeal Cert.KernelIdeal.Gen Cert.KernelIdeal.Frm
open Idealize.ShloMosaic Idealize.ShloMosaic.TcCoe Idealize.ShloMosaic.ValueIdx

variable (m : (ℓ : Loc nD τ sig) → Buf (Elt Ideal) ℓ) (c : Dev nD)

/-- The adjacency matrix reaches the second region as launched: neither the first region nor the reshape writes it. -/
theorem entry_adj : Vb m c main_arg1 = m ((c : Thread nD τ).loc main_arg1) :=
  calc Vb m c main_arg1
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | (repeat' apply And.intro) <;> exact StableHlo.devRef_ne_of_ne (by decide) | exact StableHlo.devRef_ne_of_ne (by decide)))
    _ = W0 m c (Proc.devRef .tc main_arg1) := W1_of_ne m c main_arg1 (by decide)
    _ = m ((c : Thread nD τ).loc main_arg1) := rfl

/-- The support array reaches the second region as the first region left it: input · weight of the launched
    arrays, entry by entry. -/
theorem entry_support : Vb m c main_v0 = fun i => Cert.Spec.support (m ((c : Thread nD τ).loc main_arg0)) (m ((c : Thread nD τ).loc main_arg2)) (i 0) (i 1) :=
  calc Vb m c main_v0
    _ = W1 m c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          first | (repeat' apply And.intro) <;> exact StableHlo.devRef_ne_of_ne (by decide) | exact StableHlo.devRef_ne_of_ne (by decide)))
    _ = (dat0 (Va m) c).arrAt 2 cfg0.N := W1_arr m c 2
    _ = fun i => Cert.Spec.support (m ((c : Thread nD τ).loc main_arg0)) (m ((c : Thread nD τ).loc main_arg2)) (i 0) (i 1) :=
          support_arr (Va m) c

/-- Entry (0, q) of the bias the second region finds is entry q of the launched bias: the reshape from [128] to
    [1, 128] keeps the elements in order, and nothing before it writes the bias. -/
theorem entry_bias (q : Fin 128) : Vb m c main_v1 (ix2 (0 : Fin 1) q) = m ((c : Thread nD τ).loc main_arg3) (ix1 q) := by
  have e : (Vb m c main_v1 : S1x128.Idx → EReal)
      = shapeCast S1x128 (W1 m c (Proc.devRef .tc main_arg3) : S128.Idx → EReal) shapeCasts_S128_S1x128 := by
    show StableHlo.after hostOps1 (W1 m c) (Proc.devRef .tc main_v1) = _
    after_results
    rfl
  have e3 : (W1 m c (Proc.devRef .tc main_arg3) : S128.Idx → EReal) = m ((c : Thread nD τ).loc main_arg3) :=
    (W1_of_ne m c main_arg3 (by decide)).trans rfl
  show (Vb m c main_v1 : S1x128.Idx → EReal) (ix2 (0 : Fin 1) q) = _
  rw [e, shapeCast_a_1a_apply, e3]

end Cert.KernelIdeal.Val

end
-- ==== Proof.KernelIdealV1Arr.lean ====
/-
  From blocks to the array for the second kernel region's output.

  The output window's block at grid point t = 4·rb + kb is rows 1024·rb … 1024·rb + 1023 of the output array, and it
  is written back only at the last column block kb = 3. So if at every such point the block the body leaves is the
  row block rb of one function G of the array's index, the eight written blocks tile the 8192 rows and the array ends
  holding G.
-/
import proofs.«165755_j59588376264936_2_alg».proof.Proof.KernelIdealR1
import proofs.«165755_j59588376264936_2_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The output window's printed index map over the grid: its row block index is the point's row of the grid, its
    column block index is zero. -/
theorem out_idx_facts : ∀ t : Fin cfg1.N, win1_3.index t (0 : Fin 2) = t.val / 4 ∧ win1_3.index t (1 : Fin 2) = 0 :=
  (by decide +kernel : ∀ t : Fin grid1.N, _)

/-- A block that is row block rb of G, read at entry j, is G at row 1024·rb + (j 0), column (j 1). -/
theorem row_block_at (X : Vec Ideal S1024x128 .f32) (G : S8192x128.Idx → EReal) (rb : Fin 8)
    (hX : ∀ (r : Fin 1024) (q : Fin 128), X (ix2 r q) = G (ix2 (Cert.Spec.row rb r) q))
    (j : S1024x128.Idx) (i : S8192x128.Idx)
    (h0 : (i 0).val = rb.val * 1024 + (j 0).val) (h1 : (i 1).val = (j 1).val) : X j = G i := by
  obtain ⟨p, q, rfl⟩ : ∃ (p : Fin 1024) (q : Fin 128), j = ix2 p q := ⟨j 0, j 1, eq_ix2 j⟩
  refine (hX p q).trans (congrArg G ?_)
  funext a
  apply Fin.ext
  match a with
  | ⟨0, _⟩ => show rb.val * 1024 + p.val = (i 0).val; exact h0.symm
  | ⟨1, _⟩ => show q.val = (i 1).val; exact h1.symm

section
variable (c : Dev nD) (G : S8192x128.Idx → EReal)
  (hblk : ∀ (t : Fin cfg1.N) (rb : Fin 8), t.val = 4 * rb.val + 3 → ∀ (r : Fin 1024) (q : Fin 128),
    (outsAt1 (F := Ideal) V c t.val t.isLt).1 (ix2 r q) = G (ix2 (Cert.Spec.row rb r) q))
include hblk

/-- What a writing point t = 4·rb + 3 writes back is block t of G. -/
theorem out_flushed_eq (t : Fin cfg1.N) (hf : (cfg1.win 3).flush t = true) :
    (dat1 (F := Ideal) V c).flushed 3 t = ((cfg1.win 3).blk t).view.read (Elt Ideal) G := by
  show (cfg1.win 3).cut (grid1.coords t) ((dat1 (F := Ideal) V c).after 3 t) = _
  rw [after1_3]
  have h3 : t.val % 4 = 3 := (flush1_3 t).mp hf
  have hN : cfg1.N = 32 := N_1
  have hlt : t.val < 32 := lt_of_lt_of_eq t.isLt hN
  obtain ⟨e0, e1⟩ := out_idx_facts t
  funext j
  show (outsAt1 (F := Ideal) V c t.val t.isLt).1 j = G (((cfg1.win 3).blk t).view.emb j)
  refine row_block_at _ G ⟨t.val / 4, by omega⟩ (hblk t ⟨t.val / 4, by omega⟩ (by show t.val = 4 * (t.val / 4) + 3; omega)) j _ ?_ ?_
  · show win1_3.index t (0 : Fin 2) * 1024 + 1 * (j 0).val = t.val / 4 * 1024 + (j 0).val; rw [e0]; omega
  · show win1_3.index t (1 : Fin 2) * 128 + 1 * (j 1).val = (j 1).val; rw [e1]; omega

omit hblk in
/-- An index of the output array is in point t's block iff each coordinate is in the block's range on its axis. -/
theorem out_mem_blk (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v2).slice (win1_3.rect t)).set ↔ _
  rw [View.set_slice_whole, Rect.mem_set_unit]
  exact Iff.rfl

omit hblk in
/-- Row r of the output is in the block of the writing point 4·(r / 1024) + 3: the eight written row blocks tile the
    array. -/
theorem out_cover (i : S8192x128.Idx) :
    ∃ t : Fin cfg1.N, (cfg1.win 3).flush t = true ∧ i ∈ ((cfg1.win 3).blk t).view.set := by
  have hN : cfg1.N = 32 := N_1
  have hi0 : (i 0).val < 8192 := (i 0).isLt
  have hi1 : (i 1).val < 128 := (i 1).isLt
  let t : Fin cfg1.N := ⟨4 * ((i 0).val / 1024) + 3, by rw [hN]; omega⟩
  have ht : t.val = 4 * ((i 0).val / 1024) + 3 := rfl
  obtain ⟨e0, e1⟩ := out_idx_facts t
  refine ⟨t, (flush1_3 t).mpr (by rw [ht]; omega), ?_⟩
  rw [out_mem_blk]
  intro a
  match a with
  | ⟨0, _⟩ => show win1_3.index t (0 : Fin 2) * 1024 ≤ (i 0).val ∧ (i 0).val < win1_3.index t (0 : Fin 2) * 1024 + 1024; rw [e0, ht]; omega
  | ⟨1, _⟩ => show win1_3.index t (1 : Fin 2) * 128 ≤ (i 1).val ∧ (i 1).val < win1_3.index t (1 : Fin 2) * 128 + 128; rw [e1]; omega

end

/-- The output array after the region is G, given that every written block is its row block of G. -/
theorem out_arr (c : Dev nD) (G : S8192x128.Idx → EReal)
    (hblk : ∀ (t : Fin cfg1.N) (rb : Fin 8), t.val = 4 * rb.val + 3 → ∀ (r : Fin 1024) (q : Fin 128),
      (Cert.KernelIdeal.Frm.outsAt1 (F := Ideal) V c t.val t.isLt).1 (ix2 r q) = G (ix2 (Cert.Spec.row rb r) q)) :
    (Cert.KernelIdeal.Frm.dat1 (F := Ideal) V c).arrAt 3 cfg1.N = G :=
  (dat1 (F := Ideal) V c).arrAt_eq_of_cover 3 G (fun t hf => out_flushed_eq V c G hblk t hf) out_cover

end Cert.KernelIdeal.Val

end
-- ==== Proof.KernelIdealV1.lean ====
/-
  The value of the second region's output array at the ideal instance, and with it the kernel program's result:
  the specification's `out` of the four argument arrays.

  For row block rb the four points' scratch updates unfold to the row sums and the product accumulated column block by
  column block from zero; the last point's payload then gives, at row r of the block and column q,
  1 / (row sum + 1) · (product + support row) + bias — the specification's entry at row 1024·rb + r.
-/
import proofs.«165755_j59588376264936_2_alg».proof.Proof.KernelIdealV1Chain
import proofs.«165755_j59588376264936_2_alg».proof.Proof.KernelIdealPay
import proofs.«165755_j59588376264936_2_alg».proof.Proof.KernelIdealV1Supp
import proofs.«165755_j59588376264936_2_alg».proof.Proof.KernelIdealV1Entry
import proofs.«165755_j59588376264936_2_alg».proof.Proof.KernelIdealV1Arr
import proofs.«165755_j59588376264936_2_alg».proof.Proof.Spec

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem

/-- Point (rb, k) of the 8 by 4 grid. -/
def pt (rb : Fin 8) (k : Fin 4) : Fin cfg1.N := ⟨4 * rb.val + k.val, by have : cfg1.N = 32 := N_1; omega⟩

section
variable (V : (c : Dev nD) → (b : Ref sig .tc) → Buf (Elt Ideal) ((c : Thread nD τ).loc b))

/-- The output block of row block `rb`, at row `r` and column `q`, from the arrays the region was entered with. -/
theorem block_value (c : Dev nD) (rb : Fin 8) (t : Fin cfg1.N) (ht : t.val = 4 * rb.val + 3) (r : Fin 1024) (q : Fin 128)
    (A : S8192x8192.Idx → EReal) (S : S8192x128.Idx → EReal) (B : S1x128.Idx → EReal)
    (hA : V c main_arg1 = A) (hS : V c main_v0 = S) (hB : V c main_v1 (ix2 (0 : Fin 1) q) = B (ix2 (0 : Fin 1) q)) :
    (outsAt1 (F := Ideal) V c t.val t.isLt).1 (ix2 r q) =
      Ideal.div 1 ((∑ kb : Fin 4, ∑ j : Fin 2048, A (ix2 (Cert.Spec.row rb r) (Cert.Spec.col kb j))) + 1)
        * ((∑ kb : Fin 4, ∑ j : Fin 2048, A (ix2 (Cert.Spec.row rb r) (Cert.Spec.col kb j)) * S (ix2 (Cert.Spec.col kb j) q))
            + S (ix2 (Cert.Spec.row rb r) q))
        + B (ix2 (0 : Fin 1) q) := by
  have ht3 : t.val = 4 * rb.val + (3 : Fin 4).val := ht
  have h3 := out_last V c t (pt rb 2) (by show 4 * rb.val + 2 + 1 = t.val; omega) (by omega) (by omega)
  obtain ⟨a2, s2⟩ := scr_next V c (pt rb 2) (pt rb 1) (by show 4 * rb.val + 1 + 1 = 4 * rb.val + 2; omega) (by show ¬(4 * rb.val + 2) % 4 = 0; omega)
  obtain ⟨a1, s1⟩ := scr_next V c (pt rb 1) (pt rb 0) (by show 4 * rb.val + 0 + 1 = 4 * rb.val + 1; omega) (by show ¬(4 * rb.val + 1) % 4 = 0; omega)
  obtain ⟨a0, s0⟩ := scr_first V c (pt rb 0) (by show (4 * rb.val + 0) % 4 = 0; omega)
  rw [h3]
  simp only [pay5_apply, pay4_apply, pay3_apply, a2, s2, a1, s1, a0, s0, pay1_apply, pay2_apply,
    adj_block V c t rb 3 ht3, adj_block V c (pt rb 2) rb 2 rfl, adj_block V c (pt rb 1) rb 1 rfl, adj_block V c (pt rb 0) rb 0 rfl,
    suppCols_apply V c t rb 3 ht3, suppCols_apply V c (pt rb 2) rb 2 rfl, suppCols_apply V c (pt rb 1) rb 1 rfl, suppCols_apply V c (pt rb 0) rb 0 rfl,
    suppRows_apply V c t rb 3 ht3, bias_block V c t rb 3 ht3, zero_add, Fin.sum_univ_four, hB]
  subst hA; subst hS
  rfl

end

/-- The second region leaves the specification's result in the output array. -/
theorem out_value (m : (ℓ : Loc nD τ sig) → Buf (Elt Ideal) ℓ) (c : Dev nD) :
    (dat1 (F := Ideal) (Vb m) c).arrAt 3 cfg1.N
      = Cert.Spec.out (m ((c : Thread nD τ).loc main_arg0)) (m ((c : Thread nD τ).loc main_arg1)) (m ((c : Thread nD τ).loc main_arg2)) (m ((c : Thread nD τ).loc main_arg3)) := by
  refine out_arr (Vb m) c _ (fun t rb ht r q => ?_)
  rw [block_value (Vb m) c rb t ht r q (m ((c : Thread nD τ).loc main_arg1))
    (fun i => Cert.Spec.support (m ((c : Thread nD τ).loc main_arg0)) (m ((c : Thread nD τ).loc main_arg2)) (i 0) (i 1))
    (fun i => m ((c : Thread nD τ).loc main_arg3) (ix1 (i 1)))
    (entry_adj m c) (entry_support m c) (entry_bias m c q)]
  rfl

end Cert.KernelIdeal.Val

end
-- ==== Proof.RefAlgebra.lean ====
/-
  The arithmetic that joins two arrangements of the normalised propagation  D⁻¹ (A + I) S + b  at one entry.

  Fix a row r.  One arrangement adds the unit row  δ r j = [r = j]  to row r of A first, divides each entry of
  the sum by the row total, and contracts with a column of S:

      Σ_j ( 1 / (0 + Σ_j' (A j' + δ r j')) · (A j + δ r j) ) · S j.

  The other keeps A as it is, cuts the columns into four blocks of 2048, and adds the self loop to the
  contraction and to the degree separately:

      1 / (Σ_blocks Σ_j A (2048·block + j) + 1) · (Σ_blocks Σ_j A (2048·block + j) · S (2048·block + j) + S r).

  Over the extended reals the two agree where every A j and S j is a real number and the row total is not zero:
  then all the sums are real, the quotient is the product with a real reciprocal, and the equation is
  distributivity in ℝ together with  Σ_j δ r j = 1  and  Σ_j δ r j · S j = S r.  The cut into blocks is a
  re-indexing of a finite sum along the bijection  (block, j) ↦ 2048·block + j, valid in any commutative monoid.
-/
import Idealize.ShloMosaic.PureOps.Ideal

noncomputable section

namespace Cert.RefAlgebra

open Idealize.ShloMosaic
open scoped BigOperators

/-- The unit row: entry j of row r of the identity matrix, as an extended real. -/
def delta {J : Type*} [DecidableEq J] (r j : J) : EReal := ((if r = j then 1 else 0 : ℝ) : EReal)

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem sum_mul_real {ι : Type*} [Fintype ι] (f g : ι → EReal) (hf : ∀ i, ∃ v : ℝ, f i = v) (hg : ∀ i, ∃ v : ℝ, g i = v) :
    ∃ v : ℝ, ∑ i, f i * g i = v := by
  choose a ha using hf
  choose b hb using hg
  refine ⟨∑ i, a i * b i, ?_⟩
  rw [coe_sum]
  exact Finset.sum_congr rfl fun i _ => by rw [ha, hb, EReal.coe_mul]

/-! ## The columns in four blocks of 2048 -/

/-- `(block, j) ↦ 2048·block + j` from four blocks of 2048 onto the 8192 columns. -/
def blockEquiv : Fin 4 × Fin 2048 ≃ Fin 8192 where
  toFun p := ⟨p.1.val * 2048 + p.2.val, by omega⟩
  invFun k := (⟨k.val / 2048, by omega⟩, ⟨k.val % 2048, by omega⟩)
  left_inv p := by
    rcases p with ⟨⟨a, ha⟩, ⟨b, hb⟩⟩
    refine Prod.ext (Fin.ext ?_) (Fin.ext ?_)
    · show (a * 2048 + b) / 2048 = a; omega
    · show (a * 2048 + b) % 2048 = b; omega
  right_inv k := by
    refine Fin.ext ?_
    show k.val / 2048 * 2048 + k.val % 2048 = k.val; omega

/-- A sum over the 8192 columns is the sum over the four blocks of the sums inside each block. -/
theorem sum_blocks {M : Type*} [AddCommMonoid M] (g : Fin 4 → Fin 2048 → Fin 8192)
    (hg : ∀ kb j, (g kb j).val = kb.val * 2048 + j.val) (f : Fin 8192 → M) :
    ∑ kb : Fin 4, ∑ j : Fin 2048, f (g kb j) = ∑ k : Fin 8192, f k := by
  have e : ∀ kb j, g kb j = blockEquiv (kb, j) := fun kb j => Fin.ext (hg kb j)
  simp only [e]
  rw [← Fintype.sum_prod_type']
  exact Fintype.sum_equiv blockEquiv _ _ (fun p => rfl)

/-! ## The law over the reals -/

/-- With real entries and a row total that is not zero, adding the unit row before normalising and contracting
    is adding the self loop to the contraction and to the degree separately. -/
theorem normalise_real {J : Type*} [Fintype J] [DecidableEq J] (r : J) (a s : J → ℝ) (hD : (∑ j, a j) + 1 ≠ 0) :
    ∑ j, (Ideal.div 1 (0 + ∑ j', ((a j' : EReal) + delta r j')) * ((a j : EReal) + delta r j)) * (s j : EReal)
      = Ideal.div 1 ((∑ j, (a j : EReal)) + 1) * ((∑ j, (a j : EReal) * (s j : EReal)) + (s r : EReal)) := by
  have hrow : ∑ j', ((a j' : EReal) + delta r j') = (((∑ j, a j) + 1 : ℝ) : EReal) := by
    unfold delta
    simp only [← EReal.coe_add]
    rw [← coe_sum, Finset.sum_add_distrib, Finset.sum_ite_eq]
    simp
  have htot : (∑ j, (a j : EReal)) + 1 = (((∑ j, a j) + 1 : ℝ) : EReal) := by
    rw [← coe_sum, EReal.coe_add, EReal.coe_one]
  rw [zero_add, hrow, htot, Ideal.div_coe hD, one_mul]
  unfold delta
  simp only [← EReal.coe_add, ← EReal.coe_mul]
  rw [← coe_sum, ← coe_sum, ← EReal.coe_add, ← EReal.coe_mul]
  refine congrArg _ ?_
  simp only [mul_assoc, ← Finset.mul_sum]
  refine congrArg _ ?_
  simp only [add_mul, Finset.sum_add_distrib, ite_mul, one_mul, zero_mul, Finset.sum_ite_eq, Finset.mem_univ, if_true]

/-- The same over extended-real entries known to be real, with the second arrangement's columns in four blocks
    and a bias added to both. The row total's being nonzero is asked of the first arrangement's divisor as it
    stands. -/
theorem entry_law (r : Fin 8192) (g : Fin 4 → Fin 2048 → Fin 8192) (hg : ∀ kb j, (g kb j).val = kb.val * 2048 + j.val)
    (A S : Fin 8192 → EReal) (hA : ∀ j, ∃ v : ℝ, A j = v) (hS : ∀ j, ∃ v : ℝ, S j = v)
    (hD : (0 : EReal) + ∑ j, (A j + delta r j) ≠ 0) (b : EReal) :
    (∑ j, (Ideal.div 1 (0 + ∑ j', (A j' + delta r j')) * (A j + delta r j)) * S j) + b
      = Ideal.div 1 ((∑ kb : Fin 4, ∑ j : Fin 2048, A (g kb j)) + 1)
          * ((∑ kb : Fin 4, ∑ j : Fin 2048, A (g kb j) * S (g kb j)) + S r) + b := by
  choose a ha using hA
  choose s hs using hS
  obtain rfl : A = fun j => (a j : EReal) := funext ha
  obtain rfl : S = fun j => (s j : EReal) := funext hs
  rw [sum_blocks g hg (fun k => (a k : EReal)), sum_blocks g hg (fun k => (a k : EReal) * (s k : EReal))]
  have hD' : (∑ j, a j) + 1 ≠ 0 := by
    intro h0
    apply hD
    have hrow : ∑ j', ((a j' : EReal) + delta r j') = (((∑ j, a j) + 1 : ℝ) : EReal) := by
      unfold delta
      simp only [← EReal.coe_add]
      rw [← coe_sum, Finset.sum_add_distrib, Finset.sum_ite_eq]
      simp
    rw [zero_add, hrow, h0, EReal.coe_zero]
  rw [normalise_real r a s hD']

end Cert.RefAlgebra

end
-- ==== Proof.RefEye.lean ====
/-
  The identity matrix as the host writes it, and a row sum, read at an index.

  The host builds the 8192 × 8192 identity by comparing the row number with the column number as 32-bit words
  and converting the one-bit answer to a float.  Row and column numbers are below 8192 < 2³², so the words are
  equal exactly when the numbers are, and entry (r, k) is the unit row  δ r k = [r = k].

  A float sum over axis 1 of an [8192, 8192] array from an initial value, at row r, is the initial value plus the
  sum over the 8192 columns of the entries of row r.
-/
import Idealize.ShloMosaic.Lib.IdealHost
import proofs.«165755_j59588376264936_2_alg».proof.Proof.RefAlgebra

noncomputable section

namespace Cert.RefEye

open Idealize.ShloMosaic Idealize.ShloMosaic.ValueIdx Cert.RefAlgebra
open scoped BigOperators

abbrev SSq : Shape := ⟨2, ![8192, 8192]⟩
abbrev SRow : Shape := ⟨1, ![8192]⟩
abbrev SSc : Shape := ⟨0, ![]⟩

/-- Row number against column number as 32-bit words: one exactly on the diagonal. -/
theorem eye_word (r k : Fin 8192) :
    IntOp.cmpi .eq (IntOp.addi (BitVec.ofNat 32 r.val) 0#32) (BitVec.ofNat 32 k.val) = if r = k then 1#1 else 0#1 := by
  have hr := r.isLt
  have hk := k.isLt
  unfold IntOp.cmpi IntOp.addi
  rw [BitVec.add_zero]
  by_cases h : r = k
  · subst h; simp
  · rw [if_neg h]
    have hne : BitVec.ofNat 32 r.val ≠ BitVec.ofNat 32 k.val := by
      intro e
      have e' := congrArg BitVec.toNat e
      rw [BitVec.toNat_ofNat, BitVec.toNat_ofNat] at e'
      exact h (Fin.ext (by omega))
    rw [beq_eq_false_iff_ne.2 hne]
    rfl

/-- Entry (r, k) of the identity, as an extended real, is the unit row. -/
theorem eye_entry (r k : Fin 8192) :
    FloatOps.uitofp (F := Ideal) .f32 (IntOp.cmpi .eq (IntOp.addi (BitVec.ofNat 32 r.val) 0#32) (BitVec.ofNat 32 k.val))
      = delta r k := by
  rw [eye_word]
  unfold delta
  by_cases h : r = k
  · rw [if_pos h, if_pos h]; show (((1#1 : BitVec 1).toNat : ℝ) : EReal) = _; simp
  · rw [if_neg h, if_neg h]; show (((0#1 : BitVec 1).toNat : ℝ) : EReal) = _; simp

/-- The identity matrix the host builds, read at (r, k). -/
theorem eye_apply (hb : SSc.BroadcastsInDim SSq (![] : Fin 0 → Fin SSq.rank)) (r k : Fin 8192) :
    (uitofp (F := Ideal) .f32 (cmpi .eq (addi (iotaInDim SSq 32 0) (broadcastInDim SSq ![] hb (constantI SSc 32 0#32)))
      (iotaInDim SSq 32 1)) : FVec Ideal SSq .f32) (ix2 r k) = delta r k := by
  show FloatOps.uitofp (F := Ideal) .f32 (IntOp.cmpi .eq (IntOp.addi (BitVec.ofNat 32 r.val)
    (broadcastInDim SSq ![] hb (constantI SSc 32 0#32) (ix2 r k))) (BitVec.ofNat 32 k.val)) = _
  rw [broadcastInDim_scalar_apply]
  exact eye_entry r k

/-- A float sum along the columns, at row r: the initial value plus the sum of the row's 8192 entries. -/
theorem rowsum_apply (y : FVec Ideal SSq .f32) (init : FVec Ideal SSc .f32) (h : SSq.ReducesTo [1] SRow)
    (hu : 0 < SSc.numel) (r : Fin 8192) :
    Host.reduceAdd y init h hu (ix1 r) = init ix0 + ∑ k : Fin 8192, y (ix2 r k) := by
  rw [hostReduceAdd_apply, Ideal.hostReduceAdd_single h (by decide)]
  refine congrArg₂ (· + ·) (congrArg init (eq_ix0 _)) (Finset.sum_congr rfl fun k _ => ?_)
  exact congrArg y (funext fun a => Fin.ext (by match a with | ⟨0, _⟩ => rfl | ⟨1, _⟩ => rfl))

end Cert.RefEye

end
-- ==== Proof.RefValue.lean ====
/-
  The reference program's result, entry by entry, is the specification's.

  Reading the reference one operation at a time at entry (r, c):  A + I  at (r, k) is  A r k + δ r k;  its row
  total is  0 + Σ_k (A r k + δ r k);  the reciprocal d r of that total is kept as it is, because an extended real
  never compares different from itself, so the guard that would replace it by zero does not fire;  the normalised
  matrix at (r, k) is  d r · (A r k + δ r k);  support = input · weight  at (k, c) is the specification's;  and the
  result is  Σ_k (d r · (A r k + δ r k)) · support k c + bias c.
  Where every entry of the input, the adjacency matrix and the weight is a real number and no row total is zero,
  that is the specification's entry: the self loop added to the product and to the degree separately, the columns
  in four blocks of 2048.
-/
import proofs.«165755_j59588376264936_2_alg».proof.Proof.Gen.ReferenceIdeal.Read
import proofs.«165755_j59588376264936_2_alg».proof.Proof.Spec
import proofs.«165755_j59588376264936_2_alg».proof.Proof.RefEye

noncomputable section

namespace Cert.RefValue

open Idealize.ShloMosaic Idealize.ShloMosaic.ValueIdx Cert.ReferenceIdeal Cert.ReferenceIdeal.Read Cert.RefAlgebra Cert.RefEye
open scoped BigOperators

variable (x0 : FVec Ideal S8192x256 .f32) (x1 : FVec Ideal S8192x8192 .f32) (x2 : FVec Ideal S256x128 .f32)
  (x3 : FVec Ideal S128 .f32)

/-- The row total of A + I at row r, as the reference forms it. -/
def rowTotal (r : Fin 8192) : EReal := 0 + ∑ k : Fin 8192, (x1 (ix2 r k) + delta r k)

/-- A + I at (r, k). -/
theorem adjI_at (r k : Fin 8192) : val_main_v6 (F := Ideal) x1 (ix2 r k) = x1 (ix2 r k) + delta r k := by
  rw [val_main_v6_apply, val_main_v5_apply, val_main_v4_apply, val_main_v3_apply, val_main_v0_apply, val_main_v1_apply,
    val_main_v2_apply, val_main_c_apply]
  exact congrArg (x1 (ix2 r k) + ·) (eye_entry r k)

/-- The row total of A + I at row r. -/
theorem rowTotal_at (r : Fin 8192) : val_main_v7 (F := Ideal) x1 (ix1 r) = rowTotal x1 r := by
  rw [val_main_v7_apply, val_main_cst_apply]
  unfold rowTotal
  refine congrArg₂ (· + ·) Ideal.ofBits_zero_f32 (Finset.sum_congr rfl fun k _ => ?_)
  have e : idx_main_v7 (ix1 r) k = ix2 r k := funext fun a => Fin.ext (by match a with | ⟨0, _⟩ => rfl | ⟨1, _⟩ => rfl)
  rw [e, adjI_at]

/-- The reciprocal of the row total survives the guard: an extended real is never different from itself. -/
theorem degInv_at (r : Fin 8192) : val_main_v11 (F := Ideal) x1 (ix1 r) = Ideal.div 1 (rowTotal x1 r) := by
  have h9 : val_main_v9 (F := Ideal) x1 (ix1 r) = Ideal.div 1 (rowTotal x1 r) := by
    rw [val_main_v9_apply, val_main_v8_apply, val_main_cst_0_apply, rowTotal_at]
    show Ideal.div (Ideal.ofBits .f32 0x3F800000#32) _ = _
    rw [Ideal.ofBits_one_f32]
  rw [val_main_v11_apply, val_main_v10_apply, h9]
  have hself : FloatOps.cmpf (F := Ideal) (φ := .f32) .une (Ideal.div 1 (rowTotal x1 r)) (Ideal.div 1 (rowTotal x1 r)) = 0#1 := by
    rw [Ideal.cmpf_def]; simp [Ideal.cmp]
  rw [hself, select_zero]

/-- The normalised matrix at (r, k). -/
theorem adjNorm_at (r k : Fin 8192) :
    val_main_v14 (F := Ideal) x1 (ix2 r k) = Ideal.div 1 (rowTotal x1 r) * (x1 (ix2 r k) + delta r k) := by
  rw [val_main_v14_apply, val_main_v13_apply, val_main_v12_apply, adjI_at]
  have e : idx_main_v12 (idx_main_v13 (ix2 r k)) = ix1 r := funext fun a => Fin.ext (by match a with | ⟨0, _⟩ => rfl)
  rw [e, degInv_at]
  rfl

/-- support = input · weight at (k, c). -/
theorem support_at (k : Fin 8192) (c : Fin 128) :
    val_main_v15 (F := Ideal) x0 x2 (ix2 k c) = Cert.Spec.support x0 x2 k c := by
  rw [val_main_v15_apply]
  unfold Cert.Spec.support
  refine Finset.sum_congr rfl fun q _ => ?_
  have el : lidx_main_v15 (ix2 k c) q = ix2 k q := funext fun a => Fin.ext (by match a with | ⟨0, _⟩ => rfl | ⟨1, _⟩ => rfl)
  have er : ridx_main_v15 (ix2 k c) q = ix2 q c := funext fun a => Fin.ext (by match a with | ⟨0, _⟩ => rfl | ⟨1, _⟩ => rfl)
  rw [el, er]

/-- The reference's result at (r, c). -/
theorem result_at (r : Fin 8192) (c : Fin 128) :
    val_main_v19 (F := Ideal) x0 x1 x2 x3 (ix2 r c)
      = (∑ k : Fin 8192, (Ideal.div 1 (rowTotal x1 r) * (x1 (ix2 r k) + delta r k)) * Cert.Spec.support x0 x2 k c) + x3 (ix1 c) := by
  rw [val_main_v19_apply, val_main_v16_apply, val_main_v18_apply, val_main_v17_apply]
  have eb : idx_main_v17 (idx_main_v18 (ix2 r c)) = ix1 c := funext fun a => Fin.ext (by match a with | ⟨0, _⟩ => rfl)
  rw [eb]
  refine congrArg (· + x3 (ix1 c)) (Finset.sum_congr rfl fun k _ => ?_)
  have el : lidx_main_v16 (ix2 r c) k = ix2 r k := funext fun a => Fin.ext (by match a with | ⟨0, _⟩ => rfl | ⟨1, _⟩ => rfl)
  have er : ridx_main_v16 (ix2 r c) k = ix2 k c := funext fun a => Fin.ext (by match a with | ⟨0, _⟩ => rfl | ⟨1, _⟩ => rfl)
  rw [el, er, adjNorm_at, support_at]

/-- Where the input, the adjacency matrix and the weight have real entries and no row of A + I sums to zero, the
    reference's result is the specification's array. -/
theorem result_eq (h0 : ∀ i, ∃ v : ℝ, x0 i = v) (h1 : ∀ i, ∃ v : ℝ, x1 i = v) (h2 : ∀ i, ∃ v : ℝ, x2 i = v)
    (hD : ∀ r : Fin 8192, (0 : EReal) + ∑ k : Fin 8192, (x1 (ix2 r k) + delta r k) ≠ 0) :
    val_main_v19 (F := Ideal) x0 x1 x2 x3 = Cert.Spec.out x0 x1 x2 x3 := by
  funext i
  obtain ⟨r, c, rfl⟩ : ∃ (r : Fin 8192) (c : Fin 128), i = ix2 r c := ⟨i 0, i 1, eq_ix2 i⟩
  rw [result_at]
  show _ = Cert.Spec.outAt x0 x1 x2 x3 r c
  unfold Cert.Spec.outAt Cert.Spec.rowsum Cert.Spec.acc rowTotal
  exact entry_law r Cert.Spec.col (fun _ _ => rfl) (fun k => x1 (ix2 r k)) (fun k => Cert.Spec.support x0 x2 k c)
    (fun k => h1 _) (fun k => sum_mul_real _ _ (fun q => h0 _) (fun q => h2 _)) (hD r) (x3 (ix1 c))

end Cert.RefValue

end
-- ==== Proof.PreFacts.lean ====
/-
  What the precondition says of the four argument arrays, over the extended reals.

  The precondition is one bit: the conjunction of five tests, each a test at every index of an array joined by
  `and`.  Four of them say  |x| < +∞  of every entry of an argument; an extended real whose absolute value
  max x (−x) is below +∞ is neither +∞ nor −∞, so it is a real number.  The fifth says of every row r of the
  adjacency matrix that the row total of A + I,  0 + Σ_k (A r k + δ r k),  is different from zero.
-/
import proofs.«165755_j59588376264936_2_alg».proof.Pre_finite_inputs
import Idealize.ShloMosaic.Lib.ReduceAll
import proofs.«165755_j59588376264936_2_alg».proof.Proof.RefEye

noncomputable section

namespace Cert.PreFacts

open Idealize.ShloMosaic Idealize.ShloMosaic.ValueIdx Cert.Pre_finite_inputs Cert.RefAlgebra Cert.RefEye
open scoped BigOperators

/-- The scalar shape has one index. -/
instance : Subsingleton S_.Idx := ⟨fun a b => funext fun d => d.elim0⟩

/-- The pattern of +∞. -/
theorem ofBits_inf : Ideal.ofBits .f32 0x7F800000#32 = ⊤ := by simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ v : ℝ, x = v := by
  rw [Ideal.cmpf_def, ofBits_inf] at h
  change Ideal.cmp .olt (max x (-x)) ⊤ = 1#1 at h
  induction x using EReal.rec with
  | bot => exact absurd h (by simp [Ideal.cmp])
  | coe v => exact ⟨v, rfl⟩
  | top => exact absurd h (by simp [Ideal.cmp])

/-- Two extended reals that compare different are different. -/
theorem ne_of_cmp_une (a b : EReal) (h : FloatOps.cmpf (F := Ideal) (φ := .f32) .une a b = 1#1) : a ≠ b := by
  intro hab
  rw [Ideal.cmpf_def, hab] at h
  simp [Ideal.cmp] at h

/-- "Every entry of x has absolute value below +∞", joined by `and` into one bit that is one: every entry of
    x is a real number. -/
theorem finite_of_all {s : Shape} {axes : List (Fin s.rank)} (x : FVec Ideal s .f32)
    (hb : S_.BroadcastsInDim s (![] : Fin 0 → Fin s.rank)) (h : s.ReducesTo axes S_) (hu : 0 < S_.numel)
    (e : Host.reduce IntOp.andi (cmpf .olt (Host.absf x) (broadcastInDim s ![] hb (constant (F := Ideal) S_ .f32 0x7F800000#32)))
      (constantI S_ 1 1#1) h hu ix0 = 1#1) (i : s.Idx) : ∃ v : ℝ, x i = v := by
  have hi := Host.reduce_andi_all _ _ h hu ix0 e i
  refine real_of_abs_lt (x i) ?_
  rw [← hi]
  show _ = FloatOps.cmpf .olt (FloatOps.hostAbsf (x i)) (broadcastInDim s ![] hb (constant (F := Ideal) S_ .f32 0x7F800000#32) i)
  rw [broadcastInDim_scalar_apply]
  rfl

variable [Cert.Pre_finite_inputs.Facts]

/-- Under the precondition every entry of the four arguments is a real number, and no row of A + I sums to
    zero. -/
theorem of_pre (a0 : FVec Ideal S8192x256 .f32) (a1 : FVec Ideal S8192x8192 .f32) (a2 : FVec Ideal S256x128 .f32)
    (a3 : FVec Ideal S128 .f32) (hpre : Cert.Pre_finite_inputs.fn (F := Ideal) a0 a1 a2 a3 = fun _ => 1#1) :
    (∀ i, ∃ v : ℝ, a0 i = v) ∧ (∀ i, ∃ v : ℝ, a1 i = v) ∧ (∀ i, ∃ v : ℝ, a2 i = v) ∧ (∀ i, ∃ v : ℝ, a3 i = v)
      ∧ ∀ r : Fin 8192, (0 : EReal) + ∑ k : Fin 8192, (a1 (ix2 r k) + delta r k) ≠ 0 := by
  have h := congrFun hpre ix0
  dsimp only [Cert.Pre_finite_inputs.fn, Cert.Pre_finite_inputs.fn_part1] at h
  obtain ⟨h18, h29⟩ := IntOp.andi_eq_one.1 h
  obtain ⟨h13, h17⟩ := IntOp.andi_eq_one.1 h18
  obtain ⟨h8, h12⟩ := IntOp.andi_eq_one.1 h13
  obtain ⟨h3, h7⟩ := IntOp.andi_eq_one.1 h8
  refine ⟨finite_of_all a0 _ _ _ h3, finite_of_all a1 _ _ _ h7, finite_of_all a2 _ _ _ h12, finite_of_all a3 _ _ _ h17, ?_⟩
  intro r
  have hr := ne_of_cmp_une _ _ (Host.reduce_andi_all _ _ _ _ ix0 h29 (ix1 r))
  rw [rowsum_apply, broadcastInDim_scalar_apply] at hr
  rw [constant_apply, Ideal.ofBits_zero_f32] at hr
  refine fun h0 => hr (Eq.trans (congrArg ((0 : EReal) + ·) (Finset.sum_congr rfl fun k _ => ?_)) h0)
  exact congrArg (a1 (ix2 r k) + ·) (eye_apply _ r k)

end Cert.PreFacts

end
-- ==== Proof.RefRun.lean ====
/-
  The reference program's run, with its result named by the specification.

  Every execution of the reference terminates with its result array at the composed term of its operations and
  its arguments unchanged.  Under the precondition every entry of the arguments is a real number and no row of
  A + I sums to zero, and then that term is, entry by entry, the specification's array of the arguments.
-/
import proofs.«165755_j59588376264936_2_alg».proof.Defs
import proofs.«165755_j59588376264936_2_alg».proof.Proof.Gen.ReferenceIdeal.Run
import proofs.«165755_j59588376264936_2_alg».proof.Proof.RefValue
import proofs.«165755_j59588376264936_2_alg».proof.Proof.PreFacts

noncomputable section

namespace Cert.RefBridge

open Idealize.ShloMosaic Idealize.ShloMosaic.TcCoe Idealize.SL.Sem

variable [Cert.ReferenceIdeal.Facts] [Cert.Pre_finite_inputs.Facts]

/-- From any memory satisfying the precondition the reference runs to completion, its result the
    specification's array of its arguments, the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v19)
          = Cert.Spec.out (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run Cert.ReferenceIdeal.defs _ _).mono (fun _ h c => ⟨(h c).1.trans ?_, (h c).2⟩)
    (Cert.ReferenceIdeal.Value.run (F := Ideal) m' ρ')
  obtain ⟨h0, h1, h2, _, hD⟩ := Cert.PreFacts.of_pre _ _ _ _ (hpre c)
  rw [Cert.ReferenceIdeal.Read.val_main_v19_eq]
  exact Cert.RefValue.result_eq _ _ _ _ h0 h1 h2 hD

end Cert.RefBridge

end
-- ==== Proof.lean ====
/-
  A graph-convolution layer with degree normalisation: the kernel against its plain reference, over the extended reals.

  The reference adds the identity to the adjacency matrix A, divides each row by its row sum (the degree), and
  multiplies by  support = input · weight  before adding the bias:  D⁻¹ (A + I) (X W) + b  with  D = rowsum (A + I).
  The kernel never forms A + I: it streams A in 1024 x 2048 tiles, accumulates the row sums and the product
  A · support column block by column block in two scratch buffers, and at the last column block of each row block adds
  the self loop to both separately — the row block's own rows of support to the product, 1 to the degree — before
  scaling by the reciprocal degree and adding the bias.

  The two agree wherever the degree is a nonzero real: then the reciprocal degree is a real number and the identity is
  distributivity and the regrouping of a finite sum of reals. At degree zero the reciprocal is +∞ at the ideal
  instance and the two arrangements differ (∞ · (a + b) against ∞ · a + ∞ · b with a, b of opposite signs), which is why
  the precondition asks, beside finite inputs, that no row of A + I sums to zero — the domain of the reference's own
  division.

  The pieces: `Spec` states the result in the kernel's arrangement; the `Ref*` and `PreFacts` modules show the
  reference's run ends at it under the precondition; the `Kernel*` / `KernelIdeal*` modules run the two kernel regions
  (the word-level program and its idealization share one text) and the `KernelIdealV*` / `KernelIdealPay` modules read
  the idealized kernel's result array, which is the specification with no hypothesis at all.
-/
import proofs.«165755_j59588376264936_2_alg».proof.Defs
import proofs.«165755_j59588376264936_2_alg».proof.Proof.Gen.Kernel
import proofs.«165755_j59588376264936_2_alg».proof.Proof.Gen.KernelIdeal
import proofs.«165755_j59588376264936_2_alg».proof.Proof.Gen.ReferenceIdeal
import proofs.«165755_j59588376264936_2_alg».proof.Proof.Gen.ReferenceIdeal.Run
import proofs.«165755_j59588376264936_2_alg».proof.Proof.Gen.Pre_finite_inputs
import proofs.«165755_j59588376264936_2_alg».proof.Proof.KernelMain
import proofs.«165755_j59588376264936_2_alg».proof.Proof.KernelIdealMain
import proofs.«165755_j59588376264936_2_alg».proof.Proof.KernelIdealV1
import proofs.«165755_j59588376264936_2_alg».proof.Proof.RefRun

noncomputable section

namespace Cert.Proof

open Idealize.ShloMosaic Idealize.ShloMosaic.TcCoe Idealize.SL.Sem

/-- The word-level kernel runs to the end and leaves its arguments as launched. -/
theorem frame_p : Cert.frame_Kernel := fun m ρ _ =>
  (θ_run (Cert.Kernel.defs (F := Bits)) _ _).mono (fun _ h c => (h c).2) (Cert.Kernel.Frm.run (F := Bits) m ρ)

/-- So does its idealization. -/
theorem frame_pi : Cert.frame_KernelIdeal := fun m ρ _ =>
  (θ_run (Cert.KernelIdeal.defs (F := Ideal)) _ _).mono (fun _ h c => (h c).2) (Cert.KernelIdeal.Frm.run (F := Ideal) m ρ)

/-- And the reference: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- From memories agreeing on the arguments both programs end at the specification's result of those arguments: the
    kernel unconditionally, the reference because the precondition (carried over along the agreement) keeps every
    degree a nonzero real. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run (Cert.KernelIdeal.defs (F := Ideal)) _ _).mono
      (fun _ h c => ⟨(h c).1.trans (Cert.KernelIdeal.Val.out_value m c), (h c).2⟩) (Cert.KernelIdeal.Frm.run (F := Ideal) m ρ)
  · have hpre' : Cert.Pre_ReferenceIdeal m' := by
      intro c
      rw [(hagree c).1, (hagree c).2.1, (hagree c).2.2.1, (hagree c).2.2.2]
      exact hpre c
    refine (θ_run (Cert.ReferenceIdeal.defs (F := Ideal)) _ _).mono (fun _ h c => ⟨?_, (h c).2⟩) (Cert.RefBridge.ref_run m' ρ' hpre')
    rw [(h c).1, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
